-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S600000 : Shape := ⟨1, ![600000]⟩
abbrev S200000 : Shape := ⟨1, ![200000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg15 : FVec F S3x128x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg15
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  main_v58

def fn_part2 {F : FTy → Type} [FloatOps F] (main_arg11 : FVec F S3x128 .f32) (main_arg12 : FVec F S3x128x128 .f32) (main_arg13 : FVec F S3x128x128 .f32) (main_arg14 : FVec F S3x128 .f32) (main_arg15 : FVec F S3x128x128 .f32) (main_v33 : IVec S_ 1) : IVec S_ 1 :=
  let main_v34 : FVec F S3x128 .f32 := Host.absf main_arg11
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg12
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128x128 .f32 := Host.absf main_arg13
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg14
  let main_cst_18 : FVec F S_ .f32 := constant S_ .f32 0x7F800000#32
  let main_v50 : FVec F S3x128 .f32 := broadcastInDim S3x128 ![] bcast_S_S3x128 main_cst_18
  fn_part3 (F := F) main_arg15 main_v48 main_v49 main_v50

def fn_part1 {F : FTy → Type} [FloatOps F] (main_arg8 : FVec F S128x64 .f32) (main_arg9 : FVec F S128 .f32) (main_arg10 : FVec F S3x128x128 .f32) (main_arg11 : FVec F S3x128 .f32) (main_arg12 : FVec F S3x128x128 .f32) (main_arg13 : FVec F S3x128x128 .f32) (main_arg14 : FVec F S3x128 .f32) (main_arg15 : FVec F S3x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg10
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S100000x64 .f32) (main_arg1 : FVec F S50000x64 .f32) (main_arg2 : IVec S600000 32) (main_arg3 : IVec S600000 32) (main_arg4 : IVec S200000 32) (main_arg5 : IVec S200000 32) (main_arg6 : FVec F S128x64 .f32) (main_arg7 : FVec F S128 .f32) (main_arg8 : FVec F S128x64 .f32) (main_arg9 : FVec F S128 .f32) (main_arg10 : FVec F S3x128x128 .f32) (main_arg11 : FVec F S3x128 .f32) (main_arg12 : FVec F S3x128x128 .f32) (main_arg13 : FVec F S3x128x128 .f32) (main_arg14 : FVec F S3x128 .f32) (main_arg15 : FVec F S3x128x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_v13 main_v16
-- ==== Kernel.lean ====
abbrev S100000x64 : Shape := ⟨2, ![100000, 64]⟩
abbrev S50000x64 : Shape := ⟨2, ![50000, 64]⟩
abbrev S600000 : Shape := ⟨1, ![600000]⟩
abbrev S200000 : Shape := ⟨1, ![200000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S64x128 : Shape := ⟨2, ![64, 128]⟩
abbrev S50000x128 : Shape := ⟨2, ![50000, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S100000 : Shape := ⟨1, ![100000]⟩
abbrev S100000x1 : Shape := ⟨2, ![100000, 1]⟩
abbrev S600000x128 : Shape := ⟨2, ![600000, 128]⟩
abbrev S1x128x128 : Shape := ⟨3, ![1, 128, 128]⟩
abbrev S128x128 : Shape := ⟨2, ![128, 128]⟩
abbrev S200000x1 : Shape := ⟨2, ![200000, 1]⟩
abbrev S200000x128 : Shape := ⟨2, ![200000, 128]⟩

abbrev nBuf : Space → Nat
  | .hbm => 199
  | .vmem => 66
  | .smem => 0
  | _ => 0

abbrev hbmTy0_0 (i : Nat) : BufTy := match i % 128 with
  | 0 => ⟨S100000x64, .f32⟩
  | 1 => ⟨S50000x64, .f32⟩
  | 2 => ⟨S600000, .i32⟩
  | 3 => ⟨S600000, .i32⟩
  | 4 => ⟨S200000, .i32⟩
  | 5 => ⟨S200000, .i32⟩
  | 6 => ⟨S128x64, .f32⟩
  | 7 => ⟨S128, .f32⟩
  | 8 => ⟨S128x64, .f32⟩
  | 9 => ⟨S128, .f32⟩
  | 10 => ⟨S3x128x128, .f32⟩
  | 11 => ⟨S3x128, .f32⟩
  | 12 => ⟨S3x128x128, .f32⟩
  | 13 => ⟨S3x128x128, .f32⟩
  | 14 => ⟨S3x128, .f32⟩
  | 15 => ⟨S3x128x128, .f32⟩
  | 16 => ⟨S1x128, .f32⟩
  | 17 => ⟨S100000x128, .f32⟩
  | 18 => ⟨S1x128, .f32⟩
  | 19 => ⟨S50000x128, .f32⟩
  | 20 => ⟨S_, .f32⟩
  | 21 => ⟨S600000, .f32⟩
  | 22 => ⟨S_, .f32⟩
  | 23 => ⟨S50000, .f32⟩
  | 24 => ⟨S600000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S_, .f32⟩
  | 31 => ⟨S600000, .f32⟩
  | 32 => ⟨S_, .f32⟩
  | 33 => ⟨S100000, .f32⟩
  | 34 => ⟨S600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S50000x128, .f32⟩
  | 51 => ⟨S600000x1, .i32⟩
  | 52 => ⟨S50000x128, .f32⟩
  | 53 => ⟨S50000x128, .f32⟩
  | 54 => ⟨S50000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S100000x128, .f32⟩
  | 69 => ⟨S100000x128, .f32⟩
  | 70 => ⟨S1x128x128, .f32⟩
  | 71 => ⟨S128x128, .f32⟩
  | 72 => ⟨S1x128, .f32⟩
  | 73 => ⟨S128, .f32⟩
  | 74 => ⟨S1x128x128, .f32⟩
  | 75 => ⟨S128x128, .f32⟩
  | 76 => ⟨S1x128, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S100000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S50000x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S100000x128, .f32⟩
  | 115 => ⟨S100000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S50000x128, .f32⟩
  | 124 => ⟨S1x128x128, .f32⟩
  | 125 => ⟨S128x128, .f32⟩
  | 126 => ⟨S1x128, .f32⟩
  | 127 => ⟨S128, .f32⟩
  | _ => ⟨S100000x64, .f32⟩

abbrev hbmTy0_1 (i : Nat) : BufTy := match i % 128 with
  | 0 => ⟨S1x128x128, .f32⟩
  | 1 => ⟨S128x128, .f32⟩
  | 2 => ⟨S1x128, .f32⟩
  | 3 => ⟨S100000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S_, .f32⟩
  | 14 => ⟨S50000x128, .f32⟩
  | 15 => ⟨S600000x1, .i32⟩
  | 16 => ⟨S50000x128, .f32⟩
  | 17 => ⟨S50000x128, .f32⟩
  | 18 => ⟨S50000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S100000x128, .f32⟩
  | 30 => ⟨S600000x1, .i32⟩
  | 31 => ⟨S100000x128, .f32⟩
  | 32 => ⟨S100000x128, .f32⟩
  | 33 => ⟨S100000x128, .f32⟩
  | 34 => ⟨S1x128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S50000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S100000x128, .f32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x128, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S200000x128, .f32⟩
  | 68 => ⟨S200000x128, .f32⟩
  | 69 => ⟨S_, .f32⟩
  | 70 => ⟨S200000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S128x64, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S128x64, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S5000x128, .f32⟩
  | .local _ .vmem, ⟨65, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_16 : Ref sig .tc := ⟨.hbm, 132, rfl⟩
abbrev main_v98 : Ref sig .tc := ⟨.hbm, 133, rfl⟩
abbrev main_v99 : Ref sig .tc := ⟨.hbm, 134, rfl⟩
abbrev main_c_17 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_19 : Ref sig .tc := ⟨.hbm, 147, rfl⟩
abbrev main_v110 : Ref sig .tc := ⟨.hbm, 148, rfl⟩
abbrev main_v111 : Ref sig .tc := ⟨.hbm, 149, rfl⟩
abbrev main_c_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_21 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_22 : Ref sig .tc := ⟨.hbm, 178, rfl⟩
abbrev main_v138 : Ref sig .tc := ⟨.hbm, 179, rfl⟩
abbrev main_v139 : Ref sig .tc := ⟨.hbm, 180, rfl⟩
abbrev main_c_23 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_c_24 : Ref sig .tc := ⟨.hbm, 187, rfl⟩
abbrev main_v145 : Ref sig .tc := ⟨.hbm, 188, rfl⟩
abbrev main_v146 : Ref sig .tc := ⟨.hbm, 189, rfl⟩
abbrev main_c_25 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_26 : Ref sig .tc := ⟨.hbm, 197, rfl⟩
abbrev main_v153 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem5_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  dot_S5000x64_S64x128_S5000x128_1_0_0_1_n_n_wf : DotDims.WF S5000x64 S64x128 S5000x128 [1] [0] [0] [1] [] []
  scatter_S50000_S600000x1_S600000_n_0_0_1_wf : ScatterDims.WF S50000 S600000x1 S600000 [] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v109) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v123) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v129) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v121) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v131) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v137) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S600000 : Shape := ⟨1, ![600000]⟩
abbrev S200000 : Shape := ⟨1, ![200000]⟩
abbrev S128x64 : Shape := ⟨2, ![128, 64]⟩
abbrev S128 : Shape := ⟨1, ![128]⟩
abbrev S3x128x128 : Shape := ⟨3, ![3, 128, 128]⟩
abbrev S3x128 : Shape := ⟨2, ![3, 128]⟩
abbrev S64x128 : Shape := ⟨2, ![64, 128]⟩
abbrev S100000x128 : Shape := ⟨2, ![100000, 128]⟩
abbrev S1x128 : Shape := ⟨2, ![1, 128]⟩
abbrev S50000x128 : Shape := ⟨2, ![50000, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S100000 : Shape := ⟨1, ![100000]⟩
abbrev S100000x1 : Shape := ⟨2, ![100000, 1]⟩
abbrev S600000x128 : Shape := ⟨2, ![600000, 128]⟩
abbrev S1x128x128 : Shape := ⟨3, ![1, 128, 128]⟩
abbrev S128x128 : Shape := ⟨2, ![128, 128]⟩
abbrev S200000x1 : Shape := ⟨2, ![200000, 1]⟩
abbrev S200000x128 : Shape := ⟨2, ![200000, 128]⟩

abbrev nBuf : Space → Nat
  | .hbm => 253
  | .vmem => 0
  | .smem => 0
  | _ => 0

abbrev hbmTy0_0 (i : Nat) : BufTy := match i % 128 with
  | 0 => ⟨S100000x64, .f32⟩
  | 1 => ⟨S50000x64, .f32⟩
  | 2 => ⟨S600000, .i32⟩
  | 3 => ⟨S600000, .i32⟩
  | 4 => ⟨S200000, .i32⟩
  | 5 => ⟨S200000, .i32⟩
  | 6 => ⟨S128x64, .f32⟩
  | 7 => ⟨S128, .f32⟩
  | 8 => ⟨S128x64, .f32⟩
  | 9 => ⟨S128, .f32⟩
  | 10 => ⟨S3x128x128, .f32⟩
  | 11 => ⟨S3x128, .f32⟩
  | 12 => ⟨S3x128x128, .f32⟩
  | 13 => ⟨S3x128x128, .f32⟩
  | 14 => ⟨S3x128, .f32⟩
  | 15 => ⟨S3x128x128, .f32⟩
  | 16 => ⟨S64x128, .f32⟩
  | 17 => ⟨S100000x128, .f32⟩
  | 18 => ⟨S1x128, .f32⟩
  | 19 => ⟨S100000x128, .f32⟩
  | 20 => ⟨S100000x128, .f32⟩
  | 21 => ⟨S64x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S600000, .f32⟩
  | 28 => ⟨S_, .f32⟩
  | 29 => ⟨S50000, .f32⟩
  | 30 => ⟨S600000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S_, .f32⟩
  | 37 => ⟨S600000, .f32⟩
  | 38 => ⟨S_, .f32⟩
  | 39 => ⟨S100000, .f32⟩
  | 40 => ⟨S600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S50000x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S100000x128, .f32⟩
  | 75 => ⟨S100000x128, .f32⟩
  | 76 => ⟨S1x128x128, .f32⟩
  | 77 => ⟨S128x128, .f32⟩
  | 78 => ⟨S128x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S1x128x128, .f32⟩
  | 86 => ⟨S128x128, .f32⟩
  | 87 => ⟨S128x128, .f32⟩
  | 88 => ⟨S50000x128, .f32⟩
  | 89 => ⟨S50000x128, .f32⟩
  | 90 => ⟨S1x128x128, .f32⟩
  | 91 => ⟨S128x128, .f32⟩
  | 92 => ⟨S128x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x128x128, .f32⟩
  | 100 => ⟨S128x128, .f32⟩
  | 101 => ⟨S128x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S_, .f32⟩
  | 108 => ⟨S50000x128, .f32⟩
  | 109 => ⟨S50000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S_, .f32⟩
  | 120 => ⟨S50000x128, .f32⟩
  | 121 => ⟨S600000x1, .i32⟩
  | 122 => ⟨S50000x128, .f32⟩
  | 123 => ⟨S50000x128, .f32⟩
  | 124 => ⟨S50000x128, .f32⟩
  | 125 => ⟨S_, .i32⟩
  | 126 => ⟨S600000, .i32⟩
  | 127 => ⟨S600000, .i1⟩
  | _ => ⟨S100000x64, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S_, .f32⟩
  | 7 => ⟨S100000x128, .f32⟩
  | 8 => ⟨S600000x1, .i32⟩
  | 9 => ⟨S100000x128, .f32⟩
  | 10 => ⟨S100000x128, .f32⟩
  | 11 => ⟨S100000x128, .f32⟩
  | 12 => ⟨S1x128x128, .f32⟩
  | 13 => ⟨S128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S1x128x128, .f32⟩
  | 22 => ⟨S128x128, .f32⟩
  | 23 => ⟨S128x128, .f32⟩
  | 24 => ⟨S50000x128, .f32⟩
  | 25 => ⟨S50000x128, .f32⟩
  | 26 => ⟨S1x128x128, .f32⟩
  | 27 => ⟨S128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S1x128x128, .f32⟩
  | 36 => ⟨S128x128, .f32⟩
  | 37 => ⟨S128x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S50000x128, .f32⟩
  | 45 => ⟨S50000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S50000x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S100000x128, .f32⟩
  | 75 => ⟨S100000x128, .f32⟩
  | 76 => ⟨S1x128x128, .f32⟩
  | 77 => ⟨S128x128, .f32⟩
  | 78 => ⟨S128x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S1x128x128, .f32⟩
  | 86 => ⟨S128x128, .f32⟩
  | 87 => ⟨S128x128, .f32⟩
  | 88 => ⟨S50000x128, .f32⟩
  | 89 => ⟨S50000x128, .f32⟩
  | 90 => ⟨S1x128x128, .f32⟩
  | 91 => ⟨S128x128, .f32⟩
  | 92 => ⟨S128x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x128x128, .f32⟩
  | 100 => ⟨S128x128, .f32⟩
  | 101 => ⟨S128x128, .f32⟩
  | 102 => ⟨S100000x128, .f32⟩
  | 103 => ⟨S100000x128, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x128, .f32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x128, .f32⟩
  | 122 => ⟨S200000x128, .f32⟩
  | 123 => ⟨S_, .f32⟩
  | 124 => ⟨S200000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call0_cst : Ref sig .tc := ⟨.hbm, 104, rfl⟩
abbrev main_call0_v0 : Ref sig .tc := ⟨.hbm, 105, rfl⟩
abbrev main_v76 : Ref sig .tc := ⟨.hbm, 106, rfl⟩
abbrev main_call1_cst : Ref sig .tc := ⟨.hbm, 107, rfl⟩
abbrev main_call1_v0 : Ref sig .tc := ⟨.hbm, 108, rfl⟩
abbrev main_v77 : Ref sig .tc := ⟨.hbm, 109, rfl⟩
abbrev main_c_10 : Ref sig .tc := ⟨.hbm, 110, rfl⟩
abbrev main_v78 : Ref sig .tc := ⟨.hbm, 111, rfl⟩
abbrev main_v79 : Ref sig .tc := ⟨.hbm, 112, rfl⟩
abbrev main_c_11 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_12 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_13 : Ref sig .tc := ⟨.hbm, 125, rfl⟩
abbrev main_v90 : Ref sig .tc := ⟨.hbm, 126, rfl⟩
abbrev main_v91 : Ref sig .tc := ⟨.hbm, 127, rfl⟩
abbrev main_c_14 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_15 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_call2_cst : Ref sig .tc := ⟨.hbm, 168, rfl⟩
abbrev main_call2_v0 : Ref sig .tc := ⟨.hbm, 169, rfl⟩
abbrev main_v130 : Ref sig .tc := ⟨.hbm, 170, rfl⟩
abbrev main_call3_cst : Ref sig .tc := ⟨.hbm, 171, rfl⟩
abbrev main_call3_v0 : Ref sig .tc := ⟨.hbm, 172, rfl⟩
abbrev main_v131 : Ref sig .tc := ⟨.hbm, 173, rfl⟩
abbrev main_c_16 : Ref sig .tc := ⟨.hbm, 174, rfl⟩
abbrev main_v132 : Ref sig .tc := ⟨.hbm, 175, rfl⟩
abbrev main_v133 : Ref sig .tc := ⟨.hbm, 176, rfl⟩
abbrev main_c_17 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_18 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_c_19 : Ref sig .tc := ⟨.hbm, 189, rfl⟩
abbrev main_v144 : Ref sig .tc := ⟨.hbm, 190, rfl⟩
abbrev main_v145 : Ref sig .tc := ⟨.hbm, 191, rfl⟩
abbrev main_c_20 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_21 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_c_22 : Ref sig .tc := ⟨.hbm, 232, rfl⟩
abbrev main_v184 : Ref sig .tc := ⟨.hbm, 233, rfl⟩
abbrev main_v185 : Ref sig .tc := ⟨.hbm, 234, rfl⟩
abbrev main_c_23 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_c_24 : Ref sig .tc := ⟨.hbm, 241, rfl⟩
abbrev main_v191 : Ref sig .tc := ⟨.hbm, 242, rfl⟩
abbrev main_v192 : Ref sig .tc := ⟨.hbm, 243, rfl⟩
abbrev main_c_25 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_26 : Ref sig .tc := ⟨.hbm, 251, rfl⟩
abbrev main_v199 : Ref sig .tc := ⟨.hbm, 252, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  dot_S100000x64_S64x128_S100000x128_1_0_0_1_n_n_wf : DotDims.WF S100000x64 S64x128 S100000x128 [1] [0] [0] [1] [] []
  dot_S50000x64_S64x128_S50000x128_1_0_0_1_n_n_wf : DotDims.WF S50000x64 S64x128 S50000x128 [1] [0] [0] [1] [] []
  scatter_S50000_S600000x1_S600000_n_0_0_1_wf : ScatterDims.WF S50000 S600000x1 S600000 [] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  dot_S50000x128_S128x128_S50000x128_1_0_0_1_n_n_wf : DotDims.WF S50000x128 S128x128 S50000x128 [1] [0] [0] [1] [] []
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.KernelRun.lean ====
/-
  The idealized kernel program's run with its result named.

  The program is eight kernel launches among nine stretches of host operations. Its buffer contents at each of the
  seventeen boundaries are a fold from the launch memory: a host stretch applies its operations, a launch replaces its
  output array by what its grid points wrote back and leaves every other buffer alone. Every weakly fair execution
  terminates, nothing faulting, with every buffer at the last boundary's contents: in particular the result buffer, and
  the sixteen argument arrays, which nothing writes.
-/
import proofs.«106916_j56624848830739_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents and the
    arguments as launched. -/
theorem run_named : θ_run defs (onTc (τ := τ) (main (F := F))) ⟨m, fun _ => 0, ρ⟩ (fun r => ∀ c : Dev nD,
      r.2.mem ((c.tc : Thread nD τ).loc main_v153) = W17 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v153 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c)⟩)

end Cert.KernelIdeal.Hand

end
-- ==== Proof.Spec.lean ====
/-
  The dense layers of a two-relation GraphSAGE network as functions of whole arrays over the extended reals.

  A node array has one row per node and 128 columns (the input features: 64 columns). Two kinds of layer occur:
  * the input projection  `x · Wᵀ + b`:  entry (r, c) is  `(∑ₖ x[r,k] · W[c,k]) + b[c]`;
  * the SAGE combination  `(agg · Wlᵀ + bl) + self · Wrᵀ`:  entry (r, c) is
    `((∑ₖ agg[r,k] · Wl[c,k]) + bl[c]) + ∑ₖ self[r,k] · Wr[c,k]`,  followed, in the first two layers, by `max · 0`.
  The sums are finite sums of extended reals in the order of `Finset.univ`; no law of arithmetic is used anywhere:
  both programs compute exactly these expressions, entry by entry, with this association.
  The bias reaches the kernel as a one-row matrix and the host program as a vector; `rowOf` reads the one row.
-/
import Idealize.ShloMosaic.PureOps.Ideal
import Idealize.ShloMosaic.Lib.ValueIdx
import Idealize.ShloMosaic.Lib.ValueLayout

noncomputable section

namespace Cert.Sage

open Idealize.ShloMosaic Idealize.ShloMosaic.ValueIdx

/-- The input projection: row `r` of `x` against row `c` of `W`, plus `b[c]`. -/
def lin {N K : ℕ} (x : (⟨2, ![N, K]⟩ : Shape).Idx → EReal) (W : (⟨2, ![128, K]⟩ : Shape).Idx → EReal)
    (b : (⟨1, ![128]⟩ : Shape).Idx → EReal) : (⟨2, ![N, 128]⟩ : Shape).Idx → EReal :=
  fun i => (∑ k : Fin K, x (ix2 (i 0) k) * W (ix2 (i 1) k)) + b (ix1 (i 1))

/-- The SAGE combination before the rectifier: the aggregated neighbours through `Wl` with the bias, plus the node's own
    row through `Wr`. -/
def pre {N : ℕ} (agg self : (⟨2, ![N, 128]⟩ : Shape).Idx → EReal) (Wl : (⟨2, ![128, 128]⟩ : Shape).Idx → EReal)
    (bl : (⟨1, ![128]⟩ : Shape).Idx → EReal) (Wr : (⟨2, ![128, 128]⟩ : Shape).Idx → EReal) :
    (⟨2, ![N, 128]⟩ : Shape).Idx → EReal :=
  fun i => ((∑ k : Fin 128, agg (ix2 (i 0) k) * Wl (ix2 (i 1) k)) + bl (ix1 (i 1)))
    + ∑ k : Fin 128, self (ix2 (i 0) k) * Wr (ix2 (i 1) k)

/-- The SAGE combination followed by the rectifier `max · 0` (the zero kept as the float word both programs print). -/
def act {N : ℕ} (agg self : (⟨2, ![N, 128]⟩ : Shape).Idx → EReal) (Wl : (⟨2, ![128, 128]⟩ : Shape).Idx → EReal)
    (bl : (⟨1, ![128]⟩ : Shape).Idx → EReal) (Wr : (⟨2, ![128, 128]⟩ : Shape).Idx → EReal) :
    (⟨2, ![N, 128]⟩ : Shape).Idx → EReal :=
  fun i => max (pre agg self Wl bl Wr i) (Ideal.ofBits .f32 0x00000000#32)

/-- The three layers at an entry written by its coordinates. -/
theorem lin_ix2 {N K : ℕ} (x : (⟨2, ![N, K]⟩ : Shape).Idx → EReal) (W : (⟨2, ![128, K]⟩ : Shape).Idx → EReal)
    (b : (⟨1, ![128]⟩ : Shape).Idx → EReal) (p : Fin N) (q : Fin 128) :
    lin x W b (ix2 p q) = (∑ k : Fin K, x (ix2 p k) * W (ix2 q k)) + b (ix1 q) := rfl
theorem pre_ix2 {N : ℕ} (agg self : (⟨2, ![N, 128]⟩ : Shape).Idx → EReal) (Wl : (⟨2, ![128, 128]⟩ : Shape).Idx → EReal)
    (bl : (⟨1, ![128]⟩ : Shape).Idx → EReal) (Wr : (⟨2, ![128, 128]⟩ : Shape).Idx → EReal) (p : Fin N) (q : Fin 128) :
    pre agg self Wl bl Wr (ix2 p q)
      = ((∑ k : Fin 128, agg (ix2 p k) * Wl (ix2 q k)) + bl (ix1 q)) + ∑ k : Fin 128, self (ix2 p k) * Wr (ix2 q k) := rfl
theorem act_ix2 {N : ℕ} (agg self : (⟨2, ![N, 128]⟩ : Shape).Idx → EReal) (Wl : (⟨2, ![128, 128]⟩ : Shape).Idx → EReal)
    (bl : (⟨1, ![128]⟩ : Shape).Idx → EReal) (Wr : (⟨2, ![128, 128]⟩ : Shape).Idx → EReal) (p : Fin N) (q : Fin 128) :
    act agg self Wl bl Wr (ix2 p q)
      = max (((∑ k : Fin 128, agg (ix2 p k) * Wl (ix2 q k)) + bl (ix1 q)) + ∑ k : Fin 128, self (ix2 p k) * Wr (ix2 q k))
          (Ideal.ofBits .f32 0x00000000#32) := rfl

/-- The one row of a one-row matrix, as a vector. -/
def rowOf {n : ℕ} (b : (⟨2, ![1, n]⟩ : Shape).Idx → EReal) : (⟨1, ![n]⟩ : Shape).Idx → EReal :=
  fun q => b (ix2 (0 : Fin 1) (q 0))

/-- A vector recast as a one-row matrix has that vector as its row. -/
theorem rowOf_shapeCast {n : ℕ} (b : (⟨1, ![n]⟩ : Shape).Idx → EReal)
    (h : (⟨1, ![n]⟩ : Shape).ShapeCasts ⟨2, ![1, n]⟩) : rowOf (shapeCast ⟨2, ![1, n]⟩ b h) = b := by
  funext q
  obtain ⟨k, rfl⟩ : ∃ k : Fin n, q = ix1 k := ⟨q 0, eq_ix1 q⟩
  exact shapeCast_a_1a_apply b h (0 : Fin 1) k

/-- The row read at a coordinate. -/
theorem rowOf_ix1 {n : ℕ} (b : (⟨2, ![1, n]⟩ : Shape).Idx → EReal) (q : Fin n) : rowOf b (ix1 q) = b (ix2 (0 : Fin 1) q) := rfl

end Cert.Sage

end
-- ==== Proof.Keep.lean ====
/-
  What a stretch of host operations leaves alone.

  Between two kernel launches the program runs a stretch of host operations; each operation writes one buffer of its own
  and nothing else. So a buffer that is not among the stretch's result buffers holds after the stretch what it held
  before. The nine lists below are the result buffers of the nine stretches, in program order.
-/
import proofs.«106916_j56624848830739_1_alg».proof.Proof.Gen.KernelIdeal.Frame

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers stretch 0 writes. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write is after it as before it. -/
theorem keepHost0 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The buffers stretch 1 writes. -/
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write is after it as before it. -/
theorem keepHost1 (c : Dev nD) (r : Ref sig .tc) (h : r ∉ hostOps1_W) :
    W3 m ρ c (Proc.devRef .tc r) = W2 m ρ c (Proc.devRef .tc r) :=
  StableHlo.after_of_writes_sub hostOps1 _ hostOps1_writes h

/-- The buffers stretch 2 writes. -/
abbrev hostOps2_W : List (Ref sig .tc) := [main_cst, main_v4, main_cst_0, main_v5, main_v6, main_v7, main_cst_1, main_v8, main_v9, main_v10, main_cst_2, main_v11, main_cst_3, main_v12, main_v13, main_v14, main_cst_4, main_v15, main_v16, main_v17, main_c, main_v18, main_v19, main_c_5, main_v20, main_v21, main_v22, main_v23, main_v24, main_cst_6, main_v25, main_v26, main_v27, main_v28, main_v29, main_c_7, main_v30, main_v31, main_c_8, main_v32, main_v33, main_v34, main_v35, main_v36, main_cst_9, main_v37, main_v38, main_v39, main_v40, main_v41, main_v42, main_v43, main_v44, main_v45, main_v46, main_v47, main_v48]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write is after it as before it. -/
theorem keepHost2 (c : Dev nD) (r : Ref sig .tc) (h : r ∉ hostOps2_W) :
    W5 m ρ c (Proc.devRef .tc r) = W4 m ρ c (Proc.devRef .tc r) :=
  StableHlo.after_of_writes_sub hostOps2 _ hostOps2_writes h

/-- The buffers stretch 3 writes. -/
abbrev hostOps3_W : List (Ref sig .tc) := [main_v50, main_v51, main_v52, main_v53, main_v54, main_v55, main_v56]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write is after it as before it. -/
theorem keepHost3 (c : Dev nD) (r : Ref sig .tc) (h : r ∉ hostOps3_W) :
    W7 m ρ c (Proc.devRef .tc r) = W6 m ρ c (Proc.devRef .tc r) :=
  StableHlo.after_of_writes_sub hostOps3 _ hostOps3_writes h

/-- The buffers stretch 4 writes. -/
abbrev hostOps4_W : List (Ref sig .tc) := [main_c_10, main_v58, main_v59, main_c_11, main_v60, main_v61, main_v62, main_v63, main_v64, main_cst_12, main_v65, main_v66, main_v67, main_v68, main_v69, main_c_13, main_v70, main_v71, main_c_14, main_v72, main_v73, main_v74, main_v75, main_v76, main_cst_15, main_v77, main_v78, main_v79, main_v80, main_v81, main_v82, main_v83, main_v84, main_v85, main_v86, main_v87, main_v88]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 4 does not write is after it as before it. -/
theorem keepHost4 (c : Dev nD) (r : Ref sig .tc) (h : r ∉ hostOps4_W) :
    W9 m ρ c (Proc.devRef .tc r) = W8 m ρ c (Proc.devRef .tc r) :=
  StableHlo.after_of_writes_sub hostOps4 _ hostOps4_writes h

/-- The buffers stretch 5 writes. -/
abbrev hostOps5_W : List (Ref sig .tc) := [main_v90, main_v91, main_v92, main_v93, main_v94, main_v95, main_v96]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not write is after it as before it. -/
theorem keepHost5 (c : Dev nD) (r : Ref sig .tc) (h : r ∉ hostOps5_W) :
    W11 m ρ c (Proc.devRef .tc r) = W10 m ρ c (Proc.devRef .tc r) :=
  StableHlo.after_of_writes_sub hostOps5 _ hostOps5_writes h

/-- The buffers stretch 6 writes. -/
abbrev hostOps6_W : List (Ref sig .tc) := [main_c_16, main_v98, main_v99, main_c_17, main_v100, main_v101, main_v102, main_v103, main_v104, main_cst_18, main_v105, main_v106, main_v107, main_v108, main_v109, main_c_19, main_v110, main_v111, main_c_20, main_v112, main_v113, main_v114, main_v115, main_v116, main_cst_21, main_v117, main_v118, main_v119, main_v120, main_v121, main_v122, main_v123, main_v124, main_v125, main_v126, main_v127, main_v128]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 6 does not write is after it as before it. -/
theorem keepHost6 (c : Dev nD) (r : Ref sig .tc) (h : r ∉ hostOps6_W) :
    W13 m ρ c (Proc.devRef .tc r) = W12 m ρ c (Proc.devRef .tc r) :=
  StableHlo.after_of_writes_sub hostOps6 _ hostOps6_writes h

/-- The buffers stretch 7 writes. -/
abbrev hostOps7_W : List (Ref sig .tc) := [main_v130, main_v131, main_v132, main_v133, main_v134, main_v135, main_v136]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 7 does not write is after it as before it. -/
theorem keepHost7 (c : Dev nD) (r : Ref sig .tc) (h : r ∉ hostOps7_W) :
    W15 m ρ c (Proc.devRef .tc r) = W14 m ρ c (Proc.devRef .tc r) :=
  StableHlo.after_of_writes_sub hostOps7 _ hostOps7_writes h

/-- The buffers stretch 8 writes. -/
abbrev hostOps8_W : List (Ref sig .tc) := [main_c_22, main_v138, main_v139, main_c_23, main_v140, main_v141, main_v142, main_v143, main_v144, main_c_24, main_v145, main_v146, main_c_25, main_v147, main_v148, main_v149, main_v150, main_v151, main_v152, main_cst_26, main_v153]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 8 does not write is after it as before it. -/
theorem keepHost8 (c : Dev nD) (r : Ref sig .tc) (h : r ∉ hostOps8_W) :
    W17 m ρ c (Proc.devRef .tc r) = W16 m ρ c (Proc.devRef .tc r) :=
  StableHlo.after_of_writes_sub hostOps8 _ hostOps8_writes h

/-! ## The same facts for any buffer expression, and the launches

A launch replaces its output array and leaves alone every buffer that is none of its arrays; a host stretch leaves alone
every buffer it does not write. Stated once more with the buffer as a parameter that any buffer expression instantiates. -/

theorem hostKeep0 (c : Dev nD) (r : Ref sig .tc) (h : r ∉ hostOps0_W) :
    W1 m ρ c (no_index (Proc.devRef .tc r)) = W0 m ρ c (Proc.devRef .tc r) := keepHost0 m ρ c r h
theorem hostKeep1 (c : Dev nD) (r : Ref sig .tc) (h : r ∉ hostOps1_W) :
    W3 m ρ c (no_index (Proc.devRef .tc r)) = W2 m ρ c (Proc.devRef .tc r) := keepHost1 m ρ c r h
theorem hostKeep2 (c : Dev nD) (r : Ref sig .tc) (h : r ∉ hostOps2_W) :
    W5 m ρ c (no_index (Proc.devRef .tc r)) = W4 m ρ c (Proc.devRef .tc r) := keepHost2 m ρ c r h
theorem hostKeep3 (c : Dev nD) (r : Ref sig .tc) (h : r ∉ hostOps3_W) :
    W7 m ρ c (no_index (Proc.devRef .tc r)) = W6 m ρ c (Proc.devRef .tc r) := keepHost3 m ρ c r h
theorem hostKeep4 (c : Dev nD) (r : Ref sig .tc) (h : r ∉ hostOps4_W) :
    W9 m ρ c (no_index (Proc.devRef .tc r)) = W8 m ρ c (Proc.devRef .tc r) := keepHost4 m ρ c r h
theorem hostKeep5 (c : Dev nD) (r : Ref sig .tc) (h : r ∉ hostOps5_W) :
    W11 m ρ c (no_index (Proc.devRef .tc r)) = W10 m ρ c (Proc.devRef .tc r) := keepHost5 m ρ c r h
theorem hostKeep6 (c : Dev nD) (r : Ref sig .tc) (h : r ∉ hostOps6_W) :
    W13 m ρ c (no_index (Proc.devRef .tc r)) = W12 m ρ c (Proc.devRef .tc r) := keepHost6 m ρ c r h
theorem hostKeep7 (c : Dev nD) (r : Ref sig .tc) (h : r ∉ hostOps7_W) :
    W15 m ρ c (no_index (Proc.devRef .tc r)) = W14 m ρ c (Proc.devRef .tc r) := keepHost7 m ρ c r h
theorem hostKeep8 (c : Dev nD) (r : Ref sig .tc) (h : r ∉ hostOps8_W) :
    W17 m ρ c (no_index (Proc.devRef .tc r)) = W16 m ρ c (Proc.devRef .tc r) := keepHost8 m ρ c r h
theorem launchKeep0 (c : Dev nD) (b : Ref sig .tc) (hb : ∀ w, Pipeline.arrRef spec0 w ≠ b) :
    W2 m ρ c (no_index (Proc.devRef .tc b)) = W1 m ρ c (Proc.devRef .tc b) := W2_of_ne m ρ c b hb
theorem launchKeep1 (c : Dev nD) (b : Ref sig .tc) (hb : ∀ w, Pipeline.arrRef spec1 w ≠ b) :
    W4 m ρ c (no_index (Proc.devRef .tc b)) = W3 m ρ c (Proc.devRef .tc b) := W4_of_ne m ρ c b hb
theorem launchKeep2 (c : Dev nD) (b : Ref sig .tc) (hb : ∀ w, Pipeline.arrRef spec2 w ≠ b) :
    W6 m ρ c (no_index (Proc.devRef .tc b)) = W5 m ρ c (Proc.devRef .tc b) := W6_of_ne m ρ c b hb
theorem launchKeep3 (c : Dev nD) (b : Ref sig .tc) (hb : ∀ w, Pipeline.arrRef spec3 w ≠ b) :
    W8 m ρ c (no_index (Proc.devRef .tc b)) = W7 m ρ c (Proc.devRef .tc b) := W8_of_ne m ρ c b hb
theorem launchKeep4 (c : Dev nD) (b : Ref sig .tc) (hb : ∀ w, Pipeline.arrRef spec4 w ≠ b) :
    W10 m ρ c (no_index (Proc.devRef .tc b)) = W9 m ρ c (Proc.devRef .tc b) := W10_of_ne m ρ c b hb
theorem launchKeep5 (c : Dev nD) (b : Ref sig .tc) (hb : ∀ w, Pipeline.arrRef spec5 w ≠ b) :
    W12 m ρ c (no_index (Proc.devRef .tc b)) = W11 m ρ c (Proc.devRef .tc b) := W12_of_ne m ρ c b hb
theorem launchKeep6 (c : Dev nD) (b : Ref sig .tc) (hb : ∀ w, Pipeline.arrRef spec6 w ≠ b) :
    W14 m ρ c (no_index (Proc.devRef .tc b)) = W13 m ρ c (Proc.devRef .tc b) := W14_of_ne m ρ c b hb
theorem launchKeep7 (c : Dev nD) (b : Ref sig .tc) (hb : ∀ w, Pipeline.arrRef spec7 w ≠ b) :
    W16 m ρ c (no_index (Proc.devRef .tc b)) = W15 m ρ c (Proc.devRef .tc b) := W16_of_ne m ρ c b hb

end Cert.KernelIdeal.Hand

end
-- ==== Proof.RefLayers.lean ====
/-
  The reference's dense layers are the specification's.

  The host program computes a layer as `dot_general` of the node array with the TRANSPOSED weight matrix (contracting the
  node array's columns with the transposed matrix's rows), adds the bias broadcast first to one row and then over all
  rows, and, for the first two layers, takes the maximum with a zero splat. Over the extended reals a `dot_general` read
  at (p, q) is the plain sum over the contracted axis, the transposed matrix at (k, q) is the matrix at (q, k), and the
  broadcasts read the bias at q: entry by entry these are the specification's expressions, with the same association.
-/
import proofs.«106916_j56624848830739_1_alg».proof.Proof.Gen.ReferenceIdeal
import proofs.«106916_j56624848830739_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal

/-! ## The four products at an entry -/

theorem dot100000x64_lhs0 (i : S100000x128.Idx) (q : (dot_S100000x64_S64x128_S100000x128_1_0_0_1_n_n).contr.Idx) : ((dot_S100000x64_S64x128_S100000x128_1_0_0_1_n_n).lhsIdx i q 0).val = (i 0).val := by
  unfold DotDims.lhsIdx
  rw [dif_neg (show ¬(0 : Fin S100000x64.rank) ∈ (dot_S100000x64_S64x128_S100000x128_1_0_0_1_n_n).lhsBatch by decide), dif_pos (show (0 : Fin S100000x64.rank) ∈ (dot_S100000x64_S64x128_S100000x128_1_0_0_1_n_n).lhsNonContracting by decide)]
  rfl
theorem dot100000x64_rhs1 (i : S100000x128.Idx) (q : (dot_S100000x64_S64x128_S100000x128_1_0_0_1_n_n).contr.Idx) : ((dot_S100000x64_S64x128_S100000x128_1_0_0_1_n_n).rhsIdx i q 1).val = (i 1).val := by
  unfold DotDims.rhsIdx
  rw [dif_neg (show ¬(1 : Fin S64x128.rank) ∈ (dot_S100000x64_S64x128_S100000x128_1_0_0_1_n_n).rhsBatch by decide), dif_pos (show (1 : Fin S64x128.rank) ∈ (dot_S100000x64_S64x128_S100000x128_1_0_0_1_n_n).rhsNonContracting by decide)]
  rfl
/-- The host's product of a [100000,64] array with the transpose of a [128,64] matrix at (p, q): row p against row q. -/
theorem dot100000x64_apply (x : FVec Ideal S100000x64 .f32) (w : FVec Ideal S128x64 .f32) (h : S128x64.Transposes [1, 0] S64x128)
    (p : Fin 100000) (q : Fin 128) :
    Host.dotGeneral dot_S100000x64_S64x128_S100000x128_1_0_0_1_n_n none x (transpose S64x128 [1, 0] w h) (ix2 p q) = ∑ k : Fin 64, x (ix2 p k) * w (ix2 q k) := by
  simp only [Host.dotGeneral]
  rw [Ideal.dotGeneral_apply, ← Equiv.sum_comp (contrEquiv1 dot_S100000x64_S64x128_S100000x128_1_0_0_1_n_n 64 rfl rfl).symm]
  refine Finset.sum_congr rfl fun k _ => ?_
  have hk := contrEquiv1_symm_val dot_S100000x64_S64x128_S100000x128_1_0_0_1_n_n 64 rfl rfl k
  have el : (dot_S100000x64_S64x128_S100000x128_1_0_0_1_n_n).lhsIdx (ix2 p q) ((contrEquiv1 dot_S100000x64_S64x128_S100000x128_1_0_0_1_n_n 64 rfl rfl).symm k) = ix2 p k :=
    funext fun a => Fin.ext (by
      match a with
      | ⟨0, _⟩ => exact dot100000x64_lhs0 _ _
      | ⟨1, _⟩ => exact ((dot_S100000x64_S64x128_S100000x128_1_0_0_1_n_n).lhsIdx_val_of_single rfl _ _).trans hk)
  have er : (dot_S100000x64_S64x128_S100000x128_1_0_0_1_n_n).rhsIdx (ix2 p q) ((contrEquiv1 dot_S100000x64_S64x128_S100000x128_1_0_0_1_n_n 64 rfl rfl).symm k) = ix2 k q :=
    funext fun a => Fin.ext (by
      match a with
      | ⟨0, _⟩ => exact ((dot_S100000x64_S64x128_S100000x128_1_0_0_1_n_n).rhsIdx_val_of_single rfl _ _).trans hk
      | ⟨1, _⟩ => exact dot100000x64_rhs1 _ _)
  rw [el, er]
  exact congrArg (x (ix2 p k) * ·) (transpose_ix2_apply w h k q)

theorem dot50000x64_lhs0 (i : S50000x128.Idx) (q : (dot_S50000x64_S64x128_S50000x128_1_0_0_1_n_n).contr.Idx) : ((dot_S50000x64_S64x128_S50000x128_1_0_0_1_n_n).lhsIdx i q 0).val = (i 0).val := by
  unfold DotDims.lhsIdx
  rw [dif_neg (show ¬(0 : Fin S50000x64.rank) ∈ (dot_S50000x64_S64x128_S50000x128_1_0_0_1_n_n).lhsBatch by decide), dif_pos (show (0 : Fin S50000x64.rank) ∈ (dot_S50000x64_S64x128_S50000x128_1_0_0_1_n_n).lhsNonContracting by decide)]
  rfl
theorem dot50000x64_rhs1 (i : S50000x128.Idx) (q : (dot_S50000x64_S64x128_S50000x128_1_0_0_1_n_n).contr.Idx) : ((dot_S50000x64_S64x128_S50000x128_1_0_0_1_n_n).rhsIdx i q 1).val = (i 1).val := by
  unfold DotDims.rhsIdx
  rw [dif_neg (show ¬(1 : Fin S64x128.rank) ∈ (dot_S50000x64_S64x128_S50000x128_1_0_0_1_n_n).rhsBatch by decide), dif_pos (show (1 : Fin S64x128.rank) ∈ (dot_S50000x64_S64x128_S50000x128_1_0_0_1_n_n).rhsNonContracting by decide)]
  rfl
/-- The host's product of a [50000,64] array with the transpose of a [128,64] matrix at (p, q): row p against row q. -/
theorem dot50000x64_apply (x : FVec Ideal S50000x64 .f32) (w : FVec Ideal S128x64 .f32) (h : S128x64.Transposes [1, 0] S64x128)
    (p : Fin 50000) (q : Fin 128) :
    Host.dotGeneral dot_S50000x64_S64x128_S50000x128_1_0_0_1_n_n none x (transpose S64x128 [1, 0] w h) (ix2 p q) = ∑ k : Fin 64, x (ix2 p k) * w (ix2 q k) := by
  simp only [Host.dotGeneral]
  rw [Ideal.dotGeneral_apply, ← Equiv.sum_comp (contrEquiv1 dot_S50000x64_S64x128_S50000x128_1_0_0_1_n_n 64 rfl rfl).symm]
  refine Finset.sum_congr rfl fun k _ => ?_
  have hk := contrEquiv1_symm_val dot_S50000x64_S64x128_S50000x128_1_0_0_1_n_n 64 rfl rfl k
  have el : (dot_S50000x64_S64x128_S50000x128_1_0_0_1_n_n).lhsIdx (ix2 p q) ((contrEquiv1 dot_S50000x64_S64x128_S50000x128_1_0_0_1_n_n 64 rfl rfl).symm k) = ix2 p k :=
    funext fun a => Fin.ext (by
      match a with
      | ⟨0, _⟩ => exact dot50000x64_lhs0 _ _
      | ⟨1, _⟩ => exact ((dot_S50000x64_S64x128_S50000x128_1_0_0_1_n_n).lhsIdx_val_of_single rfl _ _).trans hk)
  have er : (dot_S50000x64_S64x128_S50000x128_1_0_0_1_n_n).rhsIdx (ix2 p q) ((contrEquiv1 dot_S50000x64_S64x128_S50000x128_1_0_0_1_n_n 64 rfl rfl).symm k) = ix2 k q :=
    funext fun a => Fin.ext (by
      match a with
      | ⟨0, _⟩ => exact ((dot_S50000x64_S64x128_S50000x128_1_0_0_1_n_n).rhsIdx_val_of_single rfl _ _).trans hk
      | ⟨1, _⟩ => exact dot50000x64_rhs1 _ _)
  rw [el, er]
  exact congrArg (x (ix2 p k) * ·) (transpose_ix2_apply w h k q)

theorem dot100000x128_lhs0 (i : S100000x128.Idx) (q : (dot_S100000x128_S128x128_S100000x128_1_0_0_1_n_n).contr.Idx) : ((dot_S100000x128_S128x128_S100000x128_1_0_0_1_n_n).lhsIdx i q 0).val = (i 0).val := by
  unfold DotDims.lhsIdx
  rw [dif_neg (show ¬(0 : Fin S100000x128.rank) ∈ (dot_S100000x128_S128x128_S100000x128_1_0_0_1_n_n).lhsBatch by decide), dif_pos (show (0 : Fin S100000x128.rank) ∈ (dot_S100000x128_S128x128_S100000x128_1_0_0_1_n_n).lhsNonContracting by decide)]
  rfl
theorem dot100000x128_rhs1 (i : S100000x128.Idx) (q : (dot_S100000x128_S128x128_S100000x128_1_0_0_1_n_n).contr.Idx) : ((dot_S100000x128_S128x128_S100000x128_1_0_0_1_n_n).rhsIdx i q 1).val = (i 1).val := by
  unfold DotDims.rhsIdx
  rw [dif_neg (show ¬(1 : Fin S128x128.rank) ∈ (dot_S100000x128_S128x128_S100000x128_1_0_0_1_n_n).rhsBatch by decide), dif_pos (show (1 : Fin S128x128.rank) ∈ (dot_S100000x128_S128x128_S100000x128_1_0_0_1_n_n).rhsNonContracting by decide)]
  rfl
/-- The host's product of a [100000,128] array with the transpose of a [128,128] matrix at (p, q): row p against row q. -/
theorem dot100000x128_apply (x : FVec Ideal S100000x128 .f32) (w : FVec Ideal S128x128 .f32) (h : S128x128.Transposes [1, 0] S128x128)
    (p : Fin 100000) (q : Fin 128) :
    Host.dotGeneral dot_S100000x128_S128x128_S100000x128_1_0_0_1_n_n none x (transpose S128x128 [1, 0] w h) (ix2 p q) = ∑ k : Fin 128, x (ix2 p k) * w (ix2 q k) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : (dot_S100000x128_S128x128_S100000x128_1_0_0_1_n_n).lhsIdx (ix2 p q) ((contrEquiv1 dot_S100000x128_S128x128_S100000x128_1_0_0_1_n_n 128 rfl rfl).symm k) = ix2 p k :=
    funext fun a => Fin.ext (by
      match a with
      | ⟨0, _⟩ => exact dot100000x128_lhs0 _ _
      | ⟨1, _⟩ => exact ((dot_S100000x128_S128x128_S100000x128_1_0_0_1_n_n).lhsIdx_val_of_single rfl _ _).trans hk)
  have er : (dot_S100000x128_S128x128_S100000x128_1_0_0_1_n_n).rhsIdx (ix2 p q) ((contrEquiv1 dot_S100000x128_S128x128_S100000x128_1_0_0_1_n_n 128 rfl rfl).symm k) = ix2 k q :=
    funext fun a => Fin.ext (by
      match a with
      | ⟨0, _⟩ => exact ((dot_S100000x128_S128x128_S100000x128_1_0_0_1_n_n).rhsIdx_val_of_single rfl _ _).trans hk
      | ⟨1, _⟩ => exact dot100000x128_rhs1 _ _)
  rw [el, er]
  exact congrArg (x (ix2 p k) * ·) (transpose_ix2_apply w h k q)

theorem dot50000x128_lhs0 (i : S50000x128.Idx) (q : (dot_S50000x128_S128x128_S50000x128_1_0_0_1_n_n).contr.Idx) : ((dot_S50000x128_S128x128_S50000x128_1_0_0_1_n_n).lhsIdx i q 0).val = (i 0).val := by
  unfold DotDims.lhsIdx
  rw [dif_neg (show ¬(0 : Fin S50000x128.rank) ∈ (dot_S50000x128_S128x128_S50000x128_1_0_0_1_n_n).lhsBatch by decide), dif_pos (show (0 : Fin S50000x128.rank) ∈ (dot_S50000x128_S128x128_S50000x128_1_0_0_1_n_n).lhsNonContracting by decide)]
  rfl
theorem dot50000x128_rhs1 (i : S50000x128.Idx) (q : (dot_S50000x128_S128x128_S50000x128_1_0_0_1_n_n).contr.Idx) : ((dot_S50000x128_S128x128_S50000x128_1_0_0_1_n_n).rhsIdx i q 1).val = (i 1).val := by
  unfold DotDims.rhsIdx
  rw [dif_neg (show ¬(1 : Fin S128x128.rank) ∈ (dot_S50000x128_S128x128_S50000x128_1_0_0_1_n_n).rhsBatch by decide), dif_pos (show (1 : Fin S128x128.rank) ∈ (dot_S50000x128_S128x128_S50000x128_1_0_0_1_n_n).rhsNonContracting by decide)]
  rfl
/-- The host's product of a [50000,128] array with the transpose of a [128,128] matrix at (p, q): row p against row q. -/
theorem dot50000x128_apply (x : FVec Ideal S50000x128 .f32) (w : FVec Ideal S128x128 .f32) (h : S128x128.Transposes [1, 0] S128x128)
    (p : Fin 50000) (q : Fin 128) :
    Host.dotGeneral dot_S50000x128_S128x128_S50000x128_1_0_0_1_n_n none x (transpose S128x128 [1, 0] w h) (ix2 p q) = ∑ k : Fin 128, x (ix2 p k) * w (ix2 q k) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : (dot_S50000x128_S128x128_S50000x128_1_0_0_1_n_n).lhsIdx (ix2 p q) ((contrEquiv1 dot_S50000x128_S128x128_S50000x128_1_0_0_1_n_n 128 rfl rfl).symm k) = ix2 p k :=
    funext fun a => Fin.ext (by
      match a with
      | ⟨0, _⟩ => exact dot50000x128_lhs0 _ _
      | ⟨1, _⟩ => exact ((dot_S50000x128_S128x128_S50000x128_1_0_0_1_n_n).lhsIdx_val_of_single rfl _ _).trans hk)
  have er : (dot_S50000x128_S128x128_S50000x128_1_0_0_1_n_n).rhsIdx (ix2 p q) ((contrEquiv1 dot_S50000x128_S128x128_S50000x128_1_0_0_1_n_n 128 rfl rfl).symm k) = ix2 k q :=
    funext fun a => Fin.ext (by
      match a with
      | ⟨0, _⟩ => exact ((dot_S50000x128_S128x128_S50000x128_1_0_0_1_n_n).rhsIdx_val_of_single rfl _ _).trans hk
      | ⟨1, _⟩ => exact dot50000x128_rhs1 _ _)
  rw [el, er]
  exact congrArg (x (ix2 p k) * ·) (transpose_ix2_apply w h k q)

/-! ## The layers over the 100000 user rows and the 50000 product rows -/

/-- The bias vector broadcast to one row and then over the 100000 rows, at (p, q), is the bias at q. -/
theorem bias100000_apply (b : FVec Ideal S128 .f32) (h1 : S128.BroadcastsInDim S1x128 ![1]) (h2 : S1x128.BroadcastsInDim S100000x128 ![0, 1])
    (p : Fin 100000) (q : Fin 128) :
    broadcastInDim S100000x128 ![0, 1] h2 (broadcastInDim S1x128 ![1] h1 b) (ix2 p q) = b (ix1 q) := by
  rw [broadcastInDim_apply ![0, 1] h2 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)]),
    broadcastInDim_apply ![1] h1 b (ix2 (0 : Fin 1) q) (ix1 q) (fun a => match a with
      | ⟨0, _⟩ => by show q.val = if (128 : Nat) = 1 then 0 else q.val; rw [if_neg (by decide)])]

/-- The zero splat over the 100000 rows, at any entry, is the zero word's value. -/
theorem zero100000_apply (h : S_.BroadcastsInDim S100000x128 ![]) (i : S100000x128.Idx) :
    broadcastInDim S100000x128 ![] h (constant (F := Ideal) S_ .f32 0x00000000#32) i = Ideal.ofBits .f32 0x00000000#32 := by
  rw [broadcastInDim_apply ![] h _ i ix0 (fun a => a.elim0)]
  rfl

/-- The host's input projection over 100000 rows is the projection of the specification. -/
theorem ref_lin100000 (x : FVec Ideal S100000x64 .f32) (W : FVec Ideal S128x64 .f32) (b : FVec Ideal S128 .f32)
    (ht : S128x64.Transposes [1, 0] S64x128) (h1 : S128.BroadcastsInDim S1x128 ![1]) (h2 : S1x128.BroadcastsInDim S100000x128 ![0, 1]) :
    addf (Host.dotGeneral dot_S100000x64_S64x128_S100000x128_1_0_0_1_n_n none x (transpose S64x128 [1, 0] W ht))
        (broadcastInDim S100000x128 ![0, 1] h2 (broadcastInDim S1x128 ![1] h1 b))
      = Cert.Sage.lin x W b := by
  funext i
  obtain ⟨p, q, rfl⟩ : ∃ (p : Fin 100000) (q : Fin 128), i = ix2 p q := ⟨i 0, i 1, eq_ix2 i⟩
  rw [addf_apply, dot100000x64_apply, bias100000_apply, Cert.Sage.lin_ix2]

/-- The host's SAGE combination over 100000 rows, before the rectifier. -/
theorem ref_pre100000 (agg self : FVec Ideal S100000x128 .f32) (Wl Wr : FVec Ideal S128x128 .f32) (bl : FVec Ideal S128 .f32)
    (htl htr : S128x128.Transposes [1, 0] S128x128) (h1 : S128.BroadcastsInDim S1x128 ![1]) (h2 : S1x128.BroadcastsInDim S100000x128 ![0, 1]) :
    addf (addf (Host.dotGeneral dot_S100000x128_S128x128_S100000x128_1_0_0_1_n_n none agg (transpose S128x128 [1, 0] Wl htl))
          (broadcastInDim S100000x128 ![0, 1] h2 (broadcastInDim S1x128 ![1] h1 bl)))
        (Host.dotGeneral dot_S100000x128_S128x128_S100000x128_1_0_0_1_n_n none self (transpose S128x128 [1, 0] Wr htr))
      = Cert.Sage.pre agg self Wl bl Wr := by
  funext i
  obtain ⟨p, q, rfl⟩ : ∃ (p : Fin 100000) (q : Fin 128), i = ix2 p q := ⟨i 0, i 1, eq_ix2 i⟩
  rw [addf_apply, addf_apply, dot100000x128_apply, dot100000x128_apply, bias100000_apply, Cert.Sage.pre_ix2]

/-- The host's SAGE combination over 100000 rows, with the rectifier. -/
theorem ref_act100000 (agg self : FVec Ideal S100000x128 .f32) (Wl Wr : FVec Ideal S128x128 .f32) (bl : FVec Ideal S128 .f32)
    (htl htr : S128x128.Transposes [1, 0] S128x128) (h1 : S128.BroadcastsInDim S1x128 ![1]) (h2 : S1x128.BroadcastsInDim S100000x128 ![0, 1])
    (h0 : S_.BroadcastsInDim S100000x128 ![]) :
    maximumf (addf (addf (Host.dotGeneral dot_S100000x128_S128x128_S100000x128_1_0_0_1_n_n none agg (transpose S128x128 [1, 0] Wl htl))
          (broadcastInDim S100000x128 ![0, 1] h2 (broadcastInDim S1x128 ![1] h1 bl)))
        (Host.dotGeneral dot_S100000x128_S128x128_S100000x128_1_0_0_1_n_n none self (transpose S128x128 [1, 0] Wr htr)))
        (broadcastInDim S100000x128 ![] h0 (constant (F := Ideal) S_ .f32 0x00000000#32))
      = Cert.Sage.act agg self Wl bl Wr := by
  funext i
  obtain ⟨p, q, rfl⟩ : ∃ (p : Fin 100000) (q : Fin 128), i = ix2 p q := ⟨i 0, i 1, eq_ix2 i⟩
  rw [maximumf_apply, addf_apply, addf_apply, dot100000x128_apply, dot100000x128_apply, bias100000_apply, zero100000_apply, Cert.Sage.act_ix2]

/-- The bias vector broadcast to one row and then over the 50000 rows, at (p, q), is the bias at q. -/
theorem bias50000_apply (b : FVec Ideal S128 .f32) (h1 : S128.BroadcastsInDim S1x128 ![1]) (h2 : S1x128.BroadcastsInDim S50000x128 ![0, 1])
    (p : Fin 50000) (q : Fin 128) :
    broadcastInDim S50000x128 ![0, 1] h2 (broadcastInDim S1x128 ![1] h1 b) (ix2 p q) = b (ix1 q) := by
  rw [broadcastInDim_apply ![0, 1] h2 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)]),
    broadcastInDim_apply ![1] h1 b (ix2 (0 : Fin 1) q) (ix1 q) (fun a => match a with
      | ⟨0, _⟩ => by show q.val = if (128 : Nat) = 1 then 0 else q.val; rw [if_neg (by decide)])]

/-- The zero splat over the 50000 rows, at any entry, is the zero word's value. -/
theorem zero50000_apply (h : S_.BroadcastsInDim S50000x128 ![]) (i : S50000x128.Idx) :
    broadcastInDim S50000x128 ![] h (constant (F := Ideal) S_ .f32 0x00000000#32) i = Ideal.ofBits .f32 0x00000000#32 := by
  rw [broadcastInDim_apply ![] h _ i ix0 (fun a => a.elim0)]
  rfl

/-- The host's input projection over 50000 rows is the projection of the specification. -/
theorem ref_lin50000 (x : FVec Ideal S50000x64 .f32) (W : FVec Ideal S128x64 .f32) (b : FVec Ideal S128 .f32)
    (ht : S128x64.Transposes [1, 0] S64x128) (h1 : S128.BroadcastsInDim S1x128 ![1]) (h2 : S1x128.BroadcastsInDim S50000x128 ![0, 1]) :
    addf (Host.dotGeneral dot_S50000x64_S64x128_S50000x128_1_0_0_1_n_n none x (transpose S64x128 [1, 0] W ht))
        (broadcastInDim S50000x128 ![0, 1] h2 (broadcastInDim S1x128 ![1] h1 b))
      = Cert.Sage.lin x W b := by
  funext i
  obtain ⟨p, q, rfl⟩ : ∃ (p : Fin 50000) (q : Fin 128), i = ix2 p q := ⟨i 0, i 1, eq_ix2 i⟩
  rw [addf_apply, dot50000x64_apply, bias50000_apply, Cert.Sage.lin_ix2]

/-- The host's SAGE combination over 50000 rows, before the rectifier. -/
theorem ref_pre50000 (agg self : FVec Ideal S50000x128 .f32) (Wl Wr : FVec Ideal S128x128 .f32) (bl : FVec Ideal S128 .f32)
    (htl htr : S128x128.Transposes [1, 0] S128x128) (h1 : S128.BroadcastsInDim S1x128 ![1]) (h2 : S1x128.BroadcastsInDim S50000x128 ![0, 1]) :
    addf (addf (Host.dotGeneral dot_S50000x128_S128x128_S50000x128_1_0_0_1_n_n none agg (transpose S128x128 [1, 0] Wl htl))
          (broadcastInDim S50000x128 ![0, 1] h2 (broadcastInDim S1x128 ![1] h1 bl)))
        (Host.dotGeneral dot_S50000x128_S128x128_S50000x128_1_0_0_1_n_n none self (transpose S128x128 [1, 0] Wr htr))
      = Cert.Sage.pre agg self Wl bl Wr := by
  funext i
  obtain ⟨p, q, rfl⟩ : ∃ (p : Fin 50000) (q : Fin 128), i = ix2 p q := ⟨i 0, i 1, eq_ix2 i⟩
  rw [addf_apply, addf_apply, dot50000x128_apply, dot50000x128_apply, bias50000_apply, Cert.Sage.pre_ix2]

/-- The host's SAGE combination over 50000 rows, with the rectifier. -/
theorem ref_act50000 (agg self : FVec Ideal S50000x128 .f32) (Wl Wr : FVec Ideal S128x128 .f32) (bl : FVec Ideal S128 .f32)
    (htl htr : S128x128.Transposes [1, 0] S128x128) (h1 : S128.BroadcastsInDim S1x128 ![1]) (h2 : S1x128.BroadcastsInDim S50000x128 ![0, 1])
    (h0 : S_.BroadcastsInDim S50000x128 ![]) :
    maximumf (addf (addf (Host.dotGeneral dot_S50000x128_S128x128_S50000x128_1_0_0_1_n_n none agg (transpose S128x128 [1, 0] Wl htl))
          (broadcastInDim S50000x128 ![0, 1] h2 (broadcastInDim S1x128 ![1] h1 bl)))
        (Host.dotGeneral dot_S50000x128_S128x128_S50000x128_1_0_0_1_n_n none self (transpose S128x128 [1, 0] Wr htr)))
        (broadcastInDim S50000x128 ![] h0 (constant (F := Ideal) S_ .f32 0x00000000#32))
      = Cert.Sage.act agg self Wl bl Wr := by
  funext i
  obtain ⟨p, q, rfl⟩ : ∃ (p : Fin 50000) (q : Fin 128), i = ix2 p q := ⟨i 0, i 1, eq_ix2 i⟩
  rw [maximumf_apply, addf_apply, addf_apply, dot50000x128_apply, dot50000x128_apply, bias50000_apply, zero50000_apply, Cert.Sage.act_ix2]

end Cert.ReferenceIdeal.Hand

end
-- ==== Proof.Body.lean ====
/-
  What each kernel body stores, read at one entry of its block, over the extended reals.

  A body loads a block of 5000 rows of each node array and the whole weight matrices and bias row, and stores ONE value:
  for the input projection the matrix unit's product of the block with the transposed weights (into a zero accumulator)
  plus the bias row broadcast over the rows; for the SAGE combination two such products, the bias added to the first, and
  (in the first two layers) the maximum with zero. The roundings to bf16 on the way into the matrix unit are the identity
  over the extended reals, and a product into a zero accumulator read at (p, q) is the plain sum over the contracted axis
  of row p of the block against row q of the (untransposed) weights.
-/
import proofs.«106916_j56624848830739_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The two matrix products at an entry -/

theorem d128_lhs0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem d128_rhs1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- A [5000,128] block times the transpose of a [128,128] matrix, into zero, at (p, q): row p against row q. -/
theorem matmulT128_apply (x : FVec Ideal S5000x128 .bf16) (w : FVec Ideal S128x128 .bf16)
    (h : S128x128.Transposes [1, 0] S128x128) (p : Fin 5000) (q : Fin 128) :
    matmul dot_S5000x128_S128x128_S5000x128_1_0_0_1_n_n none x (transpose S128x128 [1, 0] w h)
        (constant S5000x128 .f32 0x00000000#32) (ix2 p q)
      = ∑ k : Fin 128, x (ix2 p k) * w (ix2 q k) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q)
      ((contrEquiv1 dot_S5000x128_S128x128_S5000x128_1_0_0_1_n_n 128 rfl rfl).symm k) = ix2 p k :=
    funext fun a => Fin.ext (by
      match a with
      | ⟨0, _⟩ => exact d128_lhs0 _ _
      | ⟨1, _⟩ => exact ((dot_S5000x128_S128x128_S5000x128_1_0_0_1_n_n).lhsIdx_val_of_single rfl _ _).trans hk)
  have er : (dot_S5000x128_S128x128_S5000x128_1_0_0_1_n_n).rhsIdx (ix2 p q)
      ((contrEquiv1 dot_S5000x128_S128x128_S5000x128_1_0_0_1_n_n 128 rfl rfl).symm k) = ix2 k q :=
    funext fun a => Fin.ext (by
      match a with
      | ⟨0, _⟩ => exact ((dot_S5000x128_S128x128_S5000x128_1_0_0_1_n_n).rhsIdx_val_of_single rfl _ _).trans hk
      | ⟨1, _⟩ => exact d128_rhs1 _ _)
  rw [el, er]
  exact congrArg (x (ix2 p k) * ·) (transpose_ix2_apply w h k q)

theorem d64_lhs0 (i : S5000x128.Idx) (q : (dot_S5000x64_S64x128_S5000x128_1_0_0_1_n_n).contr.Idx) :
    ((dot_S5000x64_S64x128_S5000x128_1_0_0_1_n_n).lhsIdx i q 0).val = (i 0).val := by
  unfold DotDims.lhsIdx
  rw [dif_neg (show ¬(0 : Fin S5000x64.rank) ∈ (dot_S5000x64_S64x128_S5000x128_1_0_0_1_n_n).lhsBatch by decide),
    dif_pos (show (0 : Fin S5000x64.rank) ∈ (dot_S5000x64_S64x128_S5000x128_1_0_0_1_n_n).lhsNonContracting by decide)]
  rfl
theorem d64_rhs1 (i : S5000x128.Idx) (q : (dot_S5000x64_S64x128_S5000x128_1_0_0_1_n_n).contr.Idx) :
    ((dot_S5000x64_S64x128_S5000x128_1_0_0_1_n_n).rhsIdx i q 1).val = (i 1).val := by
  unfold DotDims.rhsIdx
  rw [dif_neg (show ¬(1 : Fin S64x128.rank) ∈ (dot_S5000x64_S64x128_S5000x128_1_0_0_1_n_n).rhsBatch by decide),
    dif_pos (show (1 : Fin S64x128.rank) ∈ (dot_S5000x64_S64x128_S5000x128_1_0_0_1_n_n).rhsNonContracting by decide)]
  rfl

/-- A [5000,64] block times the transpose of a [128,64] matrix, into zero, at (p, q): row p against row q. -/
theorem matmulT64_apply (x : FVec Ideal S5000x64 .bf16) (w : FVec Ideal S128x64 .bf16)
    (h : S128x64.Transposes [1, 0] S64x128) (p : Fin 5000) (q : Fin 128) :
    matmul dot_S5000x64_S64x128_S5000x128_1_0_0_1_n_n none x (transpose S64x128 [1, 0] w h)
        (constant S5000x128 .f32 0x00000000#32) (ix2 p q)
      = ∑ k : Fin 64, x (ix2 p k) * w (ix2 q k) := by
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : (dot_S5000x64_S64x128_S5000x128_1_0_0_1_n_n).lhsIdx (ix2 p q)
      ((contrEquiv1 dot_S5000x64_S64x128_S5000x128_1_0_0_1_n_n 64 rfl rfl).symm k) = ix2 p k :=
    funext fun a => Fin.ext (by
      match a with
      | ⟨0, _⟩ => exact d64_lhs0 _ _
      | ⟨1, _⟩ => exact ((dot_S5000x64_S64x128_S5000x128_1_0_0_1_n_n).lhsIdx_val_of_single rfl _ _).trans hk)
  have er : (dot_S5000x64_S64x128_S5000x128_1_0_0_1_n_n).rhsIdx (ix2 p q)
      ((contrEquiv1 dot_S5000x64_S64x128_S5000x128_1_0_0_1_n_n 64 rfl rfl).symm k) = ix2 k q :=
    funext fun a => Fin.ext (by
      match a with
      | ⟨0, _⟩ => exact ((dot_S5000x64_S64x128_S5000x128_1_0_0_1_n_n).rhsIdx_val_of_single rfl _ _).trans hk
      | ⟨1, _⟩ => exact d64_rhs1 _ _)
  rw [el, er]
  exact congrArg (x (ix2 p k) * ·) (transpose_ix2_apply w h k q)

/-! ## The three payloads at an entry -/

/-- The input projection's stored value at (p, q): row p of the block against row q of the weights, plus the bias row at q. -/
theorem lin_pay_apply (x : Vec Ideal S5000x64 .f32) (w : Vec Ideal S128x64 .f32) (b : Vec Ideal S1x128 .f32)
    (p : Fin 5000) (q : Fin 128) :
    k0_pay1 (F := Ideal) x w b (ix2 p q) = (∑ k : Fin 64, x (ix2 p k) * w (ix2 q k)) + b (ix2 (0 : Fin 1) q) := by
  unfold k0_pay1
  simp only [shapeCast_self]
  rw [addf_apply, matmulT64_apply, broadcastTo_1b_ab_apply]
  rfl

/-- The SAGE combination's stored value at (p, q), without the rectifier. -/
theorem pre_pay_apply (a s : Vec Ideal S5000x128 .f32) (wl wr : Vec Ideal S128x128 .f32) (b : Vec Ideal S1x128 .f32)
    (p : Fin 5000) (q : Fin 128) :
    k6_pay1 (F := Ideal) a s wl wr b (ix2 p q)
      = ((∑ k : Fin 128, a (ix2 p k) * wl (ix2 q k)) + b (ix2 (0 : Fin 1) q)) + ∑ k : Fin 128, s (ix2 p k) * wr (ix2 q k) := by
  unfold k6_pay1
  simp only [shapeCast_self]
  rw [addf_apply, addf_apply, matmulT128_apply, matmulT128_apply, broadcastTo_1b_ab_apply]
  rfl

/-- The SAGE combination's stored value at (p, q), with the rectifier. -/
theorem act_pay_apply (a s : Vec Ideal S5000x128 .f32) (wl wr : Vec Ideal S128x128 .f32) (b : Vec Ideal S1x128 .f32)
    (p : Fin 5000) (q : Fin 128) :
    k2_pay1 (F := Ideal) a s wl wr b (ix2 p q)
      = max (((∑ k : Fin 128, a (ix2 p k) * wl (ix2 q k)) + b (ix2 (0 : Fin 1) q)) + ∑ k : Fin 128, s (ix2 p k) * wr (ix2 q k))
          (Ideal.ofBits .f32 0x00000000#32) := by
  unfold k2_pay1
  simp only [shapeCast_self]
  rw [maximumf_apply, addf_apply, addf_apply, matmulT128_apply, matmulT128_apply, broadcastTo_1b_ab_apply]
  rfl

/-- The eight bodies store one of three values: the two projections agree, the four rectified layers agree, the two last
    layers agree (the printed bodies are the same text). -/
theorem k1_pay_eq : @k1_pay1 = @k0_pay1 := rfl
theorem k3_pay_eq : @k3_pay1 = @k2_pay1 := rfl
theorem k4_pay_eq : @k4_pay1 = @k2_pay1 := rfl
theorem k5_pay_eq : @k5_pay1 = @k2_pay1 := rfl
theorem k7_pay_eq : @k7_pay1 = @k6_pay1 := rfl

end Cert.KernelIdeal.Hand

end
-- ==== Proof.Region0.lean ====
/-
  Kernel launch 0 as one function of whole arrays.

  The launch runs its body at 20 grid points. Point t reads rows 5000·t … 5000·t + 4999 of the feature array, the whole
  weight matrix and the bias row, and writes back rows 5000·t … 5000·t + 4999 of the output: the input projection of
  those rows. Entry (p, q) of the block depends on row 5000·t + p of the features and row q of the weights only. The 20
  row blocks tile the 100000 rows, so the output array ends as the input projection of the whole arrays as the launch
  finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the features' window and the output's move one row block per point, the
    weights' and the bias' windows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- The features' block at point t, entry (p, k), is the array at row 5000·t + p. -/
theorem x_blk0 (c : Dev nD) (t : Fin cfg0.N) (p : Fin 5000) (k : Fin 64) (P : Fin 100000) (hP : P.val = t.val * 5000 + p.val) :
    (iblk0 V c 0 t : Vec Ideal S5000x64 .f32) (ix2 p k) = (V c main_arg0 : S100000x64.Idx → EReal) (ix2 P k) := by
  obtain ⟨e00, e01, -⟩ := idx_facts0 t
  unfold iblk0
  rw [View.read_apply]
  show (V c main_arg0 : S100000x64.Idx → EReal) _ = _
  refine congrArg _ (funext fun a => Fin.ext ?_)
  match a with
  | ⟨0, _⟩ => show win0_0.index t (0 : Fin 2) * 5000 + 1 * p.val = P.val; rw [e00, hP]; omega
  | ⟨1, _⟩ => show win0_0.index t (1 : Fin 2) * 64 + 1 * k.val = k.val; rw [e01]; omega
/-- The weights' and the bias' blocks are the whole arrays at every point. -/
theorem w_blk0 (c : Dev nD) (t : Fin cfg0.N) (q : Fin 128) (k : Fin 64) :
    (iblk0 V c 1 t : Vec Ideal S128x64 .f32) (ix2 q k) = (V c main_arg6 : S128x64.Idx → EReal) (ix2 q k) := by
  obtain ⟨-, -, e10, e11, -⟩ := idx_facts0 t
  unfold iblk0
  rw [View.read_apply]
  show (V c main_arg6 : S128x64.Idx → EReal) _ = _
  refine congrArg _ (funext fun a => Fin.ext ?_)
  match a with
  | ⟨0, _⟩ => show win0_1.index t (0 : Fin 2) * 128 + 1 * q.val = q.val; rw [e10]; omega
  | ⟨1, _⟩ => show win0_1.index t (1 : Fin 2) * 64 + 1 * k.val = k.val; rw [e11]; omega
theorem b_blk0 (c : Dev nD) (t : Fin cfg0.N) (q : Fin 128) :
    (iblk0 V c 2 t : Vec Ideal S1x128 .f32) (ix2 (0 : Fin 1) q) = (V c main_v0 : S1x128.Idx → EReal) (ix2 (0 : Fin 1) q) := by
  obtain ⟨-, -, -, -, e20, e21, -⟩ := idx_facts0 t
  unfold iblk0
  rw [View.read_apply]
  show (V c main_v0 : S1x128.Idx → EReal) _ = _
  refine congrArg _ (funext fun a => Fin.ext ?_)
  match a with
  | ⟨0, _⟩ => show win0_2.index t (0 : Fin 2) * 1 + 1 * 0 = 0; rw [e20]
  | ⟨1, _⟩ => show win0_2.index t (1 : Fin 2) * 128 + 1 * q.val = q.val; rw [e21]; omega

/-- The output array after the launch: the input projection of the arrays as the launch finds them. -/
abbrev G0 (c : Dev nD) : S100000x128.Idx → EReal :=
  Cert.Sage.lin (V c main_arg0) (V c main_arg6) (Cert.Sage.rowOf (V c main_v0))

/-- What point t writes back is block t of that function. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S128x64) hz0, View.ld_unit_zero (S := S1x128) hz0]
  obtain ⟨-, -, -, -, -, -, e30, e31, hG⟩ := idx_facts0 t
  funext j
  obtain ⟨p, q, rfl⟩ : ∃ (p : Fin 5000) (q : Fin 128), j = ix2 p q := ⟨j 0, j 1, eq_ix2 j⟩
  have hp := p.isLt
  have he : ((cfg0.win 3).blk t).view.emb (ix2 p q) = ix2 (⟨t.val * 5000 + p.val, by omega⟩ : Fin 100000) q :=
    funext fun a => Fin.ext (by
      match a with
      | ⟨0, _⟩ => show win0_3.index t (0 : Fin 2) * 5000 + 1 * p.val = t.val * 5000 + p.val; rw [e30]; omega
      | ⟨1, _⟩ => show win0_3.index t (1 : Fin 2) * 128 + 1 * q.val = q.val; rw [e31]; omega)
  show k0_pay1 (iblk0 V c 0 t) (iblk0 V c 1 t) (iblk0 V c 2 t) (ix2 p q)
    = Cert.Sage.lin (V c main_arg0) (V c main_arg6) (Cert.Sage.rowOf (V c main_v0)) (((cfg0.win 3).blk t).view.emb (ix2 p q))
  rw [he, lin_pay_apply (iblk0 V c 0 t) (iblk0 V c 1 t) (iblk0 V c 2 t) p q, Cert.Sage.lin_ix2, Cert.Sage.rowOf_ix1]
  simp only [x_blk0 V c t p _ ⟨t.val * 5000 + p.val, by omega⟩ rfl, w_blk0 V c t q, b_blk0 V c t q]

/-- Every row is in some point's block: row r in point r / 5000's. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e30, e31, -⟩ := idx_facts0 t
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e30]; show (i 0).val / 5000 * 5000 ≤ (i 0).val ∧ (i 0).val < (i 0).val / 5000 * 5000 + 5000; omega
  | ⟨1, _⟩ => show win0_3.index t (1 : Fin 2) * 128 ≤ (i 1).val ∧ (i 1).val < win0_3.index t (1 : Fin 2) * 128 + 128; rw [e31]; omega

/-- The output array after the launch. -/
theorem final0 (c : Dev nD) : (dat0 V c).arrAt 3 cfg0.N = G0 V c :=
  (dat0 V c).arrAt_eq_of_cover 3 (G0 V c) (fun t _ => flushed0_eq V c t) (cover0)

end Cert.KernelIdeal.Hand

end
-- ==== Proof.Region1.lean ====
/-
  Kernel launch 1 as one function of whole arrays.

  The launch runs its body at 10 grid points. Point t reads rows 5000·t … 5000·t + 4999 of the feature array, the whole
  weight matrix and the bias row, and writes back rows 5000·t … 5000·t + 4999 of the output: the input projection of
  those rows. Entry (p, q) of the block depends on row 5000·t + p of the features and row q of the weights only. The 10
  row blocks tile the 50000 rows, so the output array ends as the input projection of the whole arrays as the launch
  finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the features' window and the output's move one row block per point, the
    weights' and the bias' windows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The features' block at point t, entry (p, k), is the array at row 5000·t + p. -/
theorem x_blk1 (c : Dev nD) (t : Fin cfg1.N) (p : Fin 5000) (k : Fin 64) (P : Fin 50000) (hP : P.val = t.val * 5000 + p.val) :
    (iblk1 V c 0 t : Vec Ideal S5000x64 .f32) (ix2 p k) = (V c main_arg1 : S50000x64.Idx → EReal) (ix2 P k) := by
  obtain ⟨e00, e01, -⟩ := idx_facts1 t
  unfold iblk1
  rw [View.read_apply]
  show (V c main_arg1 : S50000x64.Idx → EReal) _ = _
  refine congrArg _ (funext fun a => Fin.ext ?_)
  match a with
  | ⟨0, _⟩ => show win1_0.index t (0 : Fin 2) * 5000 + 1 * p.val = P.val; rw [e00, hP]; omega
  | ⟨1, _⟩ => show win1_0.index t (1 : Fin 2) * 64 + 1 * k.val = k.val; rw [e01]; omega
/-- The weights' and the bias' blocks are the whole arrays at every point. -/
theorem w_blk1 (c : Dev nD) (t : Fin cfg1.N) (q : Fin 128) (k : Fin 64) :
    (iblk1 V c 1 t : Vec Ideal S128x64 .f32) (ix2 q k) = (V c main_arg8 : S128x64.Idx → EReal) (ix2 q k) := by
  obtain ⟨-, -, e10, e11, -⟩ := idx_facts1 t
  unfold iblk1
  rw [View.read_apply]
  show (V c main_arg8 : S128x64.Idx → EReal) _ = _
  refine congrArg _ (funext fun a => Fin.ext ?_)
  match a with
  | ⟨0, _⟩ => show win1_1.index t (0 : Fin 2) * 128 + 1 * q.val = q.val; rw [e10]; omega
  | ⟨1, _⟩ => show win1_1.index t (1 : Fin 2) * 64 + 1 * k.val = k.val; rw [e11]; omega
theorem b_blk1 (c : Dev nD) (t : Fin cfg1.N) (q : Fin 128) :
    (iblk1 V c 2 t : Vec Ideal S1x128 .f32) (ix2 (0 : Fin 1) q) = (V c main_v2 : S1x128.Idx → EReal) (ix2 (0 : Fin 1) q) := by
  obtain ⟨-, -, -, -, e20, e21, -⟩ := idx_facts1 t
  unfold iblk1
  rw [View.read_apply]
  show (V c main_v2 : S1x128.Idx → EReal) _ = _
  refine congrArg _ (funext fun a => Fin.ext ?_)
  match a with
  | ⟨0, _⟩ => show win1_2.index t (0 : Fin 2) * 1 + 1 * 0 = 0; rw [e20]
  | ⟨1, _⟩ => show win1_2.index t (1 : Fin 2) * 128 + 1 * q.val = q.val; rw [e21]; omega

/-- The output array after the launch: the input projection of the arrays as the launch finds them. -/
abbrev G1 (c : Dev nD) : S50000x128.Idx → EReal :=
  Cert.Sage.lin (V c main_arg1) (V c main_arg8) (Cert.Sage.rowOf (V c main_v2))

/-- What point t writes back is block t of that function. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S128x64) hz1, View.ld_unit_zero (S := S1x128) hz1]
  obtain ⟨-, -, -, -, -, -, e30, e31, hG⟩ := idx_facts1 t
  funext j
  obtain ⟨p, q, rfl⟩ : ∃ (p : Fin 5000) (q : Fin 128), j = ix2 p q := ⟨j 0, j 1, eq_ix2 j⟩
  have hp := p.isLt
  have he : ((cfg1.win 3).blk t).view.emb (ix2 p q) = ix2 (⟨t.val * 5000 + p.val, by omega⟩ : Fin 50000) q :=
    funext fun a => Fin.ext (by
      match a with
      | ⟨0, _⟩ => show win1_3.index t (0 : Fin 2) * 5000 + 1 * p.val = t.val * 5000 + p.val; rw [e30]; omega
      | ⟨1, _⟩ => show win1_3.index t (1 : Fin 2) * 128 + 1 * q.val = q.val; rw [e31]; omega)
  show k1_pay1 (iblk1 V c 0 t) (iblk1 V c 1 t) (iblk1 V c 2 t) (ix2 p q)
    = Cert.Sage.lin (V c main_arg1) (V c main_arg8) (Cert.Sage.rowOf (V c main_v2)) (((cfg1.win 3).blk t).view.emb (ix2 p q))
  rw [he, k1_pay_eq, lin_pay_apply (iblk1 V c 0 t) (iblk1 V c 1 t) (iblk1 V c 2 t) p q, Cert.Sage.lin_ix2, Cert.Sage.rowOf_ix1]
  simp only [x_blk1 V c t p _ ⟨t.val * 5000 + p.val, by omega⟩ rfl, w_blk1 V c t q, b_blk1 V c t q]

/-- Every row is in some point's block: row r in point r / 5000's. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e30, e31, -⟩ := idx_facts1 t
  refine ⟨t, flush1_3 t, ?_⟩
  show i ∈ ((View.whole main_v3).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; rw [e30]; show (i 0).val / 5000 * 5000 ≤ (i 0).val ∧ (i 0).val < (i 0).val / 5000 * 5000 + 5000; omega
  | ⟨1, _⟩ => show win1_3.index t (1 : Fin 2) * 128 ≤ (i 1).val ∧ (i 1).val < win1_3.index t (1 : Fin 2) * 128 + 128; rw [e31]; omega

/-- The output array after the launch. -/
theorem final1 (c : Dev nD) : (dat1 V c).arrAt 3 cfg1.N = G1 V c :=
  (dat1 V c).arrAt_eq_of_cover 3 (G1 V c) (fun t _ => flushed1_eq V c t) (cover1)

end Cert.KernelIdeal.Hand

end
-- ==== Proof.ChainA.lean ====
/-
  The kernel program's buffers up to the first SAGE launch, named by the reference's stages.

  Each fact says: at a boundary of the kernel program, a buffer holds the value the reference computes at the
  corresponding stage, as a function of the sixteen arguments. A host stretch's results are the stretch's operations
  applied to what the buffers held before it; the reference applies the same operations to the same values. A launch's
  output is the dense layer of the arrays the launch finds, which is the reference's product-and-bias stage.
-/
import proofs.«106916_j56624848830739_1_alg».proof.Proof.Gen.KernelIdeal.Frame
import proofs.«106916_j56624848830739_1_alg».proof.Proof.Gen.ReferenceIdeal.Read
import proofs.«106916_j56624848830739_1_alg».proof.Proof.Spec
import proofs.«106916_j56624848830739_1_alg».proof.Proof.Keep
import proofs.«106916_j56624848830739_1_alg».proof.Proof.RefLayers
import proofs.«106916_j56624848830739_1_alg».proof.Proof.Region0
import proofs.«106916_j56624848830739_1_alg».proof.Proof.Region1
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The two input projections -/

theorem F1_v0 : W1 m ρ c (no_index (Proc.devRef .tc main_v0)) = shapeCast S1x128 (m ((c : Thread nD τ).loc main_arg7)) Facts₀.shapeCasts_S128_S1x128 := by
  show StableHlo.after hostOps0 (W0 m ρ c) (Proc.devRef .tc main_v0) = _
  after_results_simp

  try rfl
theorem F2_v1 : W2 m ρ c (no_index (Proc.devRef .tc main_v1)) = (Cert.ReferenceIdeal.Read.val_main_v4 (F := Ideal) (m ((c : Thread nD τ).loc main_arg0)) (m ((c : Thread nD τ).loc main_arg6)) (m ((c : Thread nD τ).loc main_arg7))) := by
  rw [show W2 m ρ c (Proc.devRef .tc main_v1) = (dat0 (V1 m ρ) c).arrAt 3 cfg0.N from W2_arr m ρ c 3, final0 (V1 m ρ) c]
  simp (disch := decide) only [G0, V1, hostKeep0, F1_v0]
  rw [Cert.Sage.rowOf_shapeCast]
  exact (Cert.ReferenceIdeal.Hand.ref_lin100000 _ _ _ _ _ _).symm
theorem F3_v2 : W3 m ρ c (no_index (Proc.devRef .tc main_v2)) = shapeCast S1x128 (m ((c : Thread nD τ).loc main_arg9)) Facts₀.shapeCasts_S128_S1x128 := by
  show StableHlo.after hostOps1 (W2 m ρ c) (Proc.devRef .tc main_v2) = _
  after_results_simp
  try simp (disch := decide) only [launchKeep0, hostKeep0, F1_v0, F2_v1]
  try rfl
theorem F4_v3 : W4 m ρ c (no_index (Proc.devRef .tc main_v3)) = (Cert.ReferenceIdeal.Read.val_main_v9 (F := Ideal) (m ((c : Thread nD τ).loc main_arg1)) (m ((c : Thread nD τ).loc main_arg8)) (m ((c : Thread nD τ).loc main_arg9))) := by
  rw [show W4 m ρ c (Proc.devRef .tc main_v3) = (dat1 (V3 m ρ) c).arrAt 3 cfg1.N from W4_arr m ρ c 3, final1 (V3 m ρ) c]
  simp (disch := decide) only [G1, V3, launchKeep0, hostKeep0, hostKeep1, F1_v0, F2_v1, F3_v2]
  rw [Cert.Sage.rowOf_shapeCast]
  exact (Cert.ReferenceIdeal.Hand.ref_lin50000 _ _ _ _ _ _).symm

/-! ## The degrees, the first aggregation and the first layer's weights -/

theorem F5_v10 : W5 m ρ c (no_index (Proc.devRef .tc main_v10)) = (Cert.ReferenceIdeal.Read.val_main_v16 (F := Ideal) (m ((c : Thread nD τ).loc main_arg3))) := by
  show StableHlo.after hostOps2 (W4 m ρ c) (Proc.devRef .tc main_v10) = _
  after_results_simp
  try simp (disch := decide) only [launchKeep0, launchKeep1, hostKeep0, hostKeep1, F1_v0, F2_v1, F3_v2, F4_v3]
  try rfl
theorem F5_v17 : W5 m ρ c (no_index (Proc.devRef .tc main_v17)) = (Cert.ReferenceIdeal.Read.val_main_v23 (F := Ideal) (m ((c : Thread nD τ).loc main_arg2))) := by
  show StableHlo.after hostOps2 (W4 m ρ c) (Proc.devRef .tc main_v17) = _
  after_results_simp
  try simp (disch := decide) only [launchKeep0, launchKeep1, hostKeep0, hostKeep1, F1_v0, F2_v1, F3_v2, F4_v3]
  try rfl
theorem F5_v29 : W5 m ρ c (no_index (Proc.devRef .tc main_v29)) = (Cert.ReferenceIdeal.Read.val_main_v35 (F := Ideal) (m ((c : Thread nD τ).loc main_arg0)) (m ((c : Thread nD τ).loc main_arg2)) (m ((c : Thread nD τ).loc main_arg3)) (m ((c : Thread nD τ).loc main_arg6)) (m ((c : Thread nD τ).loc main_arg7))) := by
  show StableHlo.after hostOps2 (W4 m ρ c) (Proc.devRef .tc main_v29) = _
  after_results_simp
  try simp (disch := decide) only [launchKeep0, launchKeep1, hostKeep0, hostKeep1, F1_v0, F2_v1, F3_v2, F4_v3]
  try rfl
theorem F5_v41 : W5 m ρ c (no_index (Proc.devRef .tc main_v41)) = (Cert.ReferenceIdeal.Read.val_main_v47 (F := Ideal) (m ((c : Thread nD τ).loc main_arg1)) (m ((c : Thread nD τ).loc main_arg2)) (m ((c : Thread nD τ).loc main_arg3)) (m ((c : Thread nD τ).loc main_arg8)) (m ((c : Thread nD τ).loc main_arg9))) := by
  show StableHlo.after hostOps2 (W4 m ρ c) (Proc.devRef .tc main_v41) = _
  after_results_simp
  try simp (disch := decide) only [launchKeep0, launchKeep1, hostKeep0, hostKeep1, F1_v0, F2_v1, F3_v2, F4_v3]
  try rfl
theorem F5_v43 : W5 m ρ c (no_index (Proc.devRef .tc main_v43)) = (Cert.ReferenceIdeal.Read.val_main_v49 (F := Ideal) (m ((c : Thread nD τ).loc main_arg10))) := by
  show StableHlo.after hostOps2 (W4 m ρ c) (Proc.devRef .tc main_v43) = _
  after_results_simp
  try simp (disch := decide) only [launchKeep0, launchKeep1, hostKeep0, hostKeep1, F1_v0, F2_v1, F3_v2, F4_v3]
  try rfl
theorem F5_v47 : W5 m ρ c (no_index (Proc.devRef .tc main_v47)) = (Cert.ReferenceIdeal.Read.val_main_v58 (F := Ideal) (m ((c : Thread nD τ).loc main_arg12))) := by
  show StableHlo.after hostOps2 (W4 m ρ c) (Proc.devRef .tc main_v47) = _
  after_results_simp
  try simp (disch := decide) only [launchKeep0, launchKeep1, hostKeep0, hostKeep1, F1_v0, F2_v1, F3_v2, F4_v3]
  try rfl
theorem F5_v48 : W5 m ρ c (no_index (Proc.devRef .tc main_v48)) = shapeCast S1x128 (Cert.ReferenceIdeal.Read.val_main_v53 (F := Ideal) (m ((c : Thread nD τ).loc main_arg11))) Facts₀.shapeCasts_S128_S1x128 := by
  show StableHlo.after hostOps2 (W4 m ρ c) (Proc.devRef .tc main_v48) = _
  after_results_simp
  try simp (disch := decide) only [launchKeep0, launchKeep1, hostKeep0, hostKeep1, F1_v0, F2_v1, F3_v2, F4_v3]
  try rfl

end Cert.KernelIdeal.Hand

end
-- ==== Proof.Region2.lean ====
/-
  Kernel launch 2 as one function of whole arrays.

  The launch runs its body at 10 grid points. Point t reads rows 5000·t … 5000·t + 4999 of the aggregated and of the own
  node array, the two whole weight matrices and the bias row, and writes back rows 5000·t … 5000·t + 4999 of the output.
  What it writes is the SAGE combination of those rows: entry (p, q) of the block depends on row 5000·t + p of the two
  node arrays and row q of the weights only. The 10 row blocks tile the 50000 rows, so the output array ends as the SAGE
  combination of the whole arrays as the launch finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the two node arrays' windows and the output's move one row block per point,
    the weights' and the bias' windows stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- A node array's block at point t, entry (p, k), is the array at row 5000·t + p. -/
theorem agg_blk2 (c : Dev nD) (t : Fin cfg2.N) (p : Fin 5000) (k : Fin 128) (P : Fin 50000) (hP : P.val = t.val * 5000 + p.val) :
    (iblk2 V c 0 t : Vec Ideal S5000x128 .f32) (ix2 p k) = (V c main_v29 : S50000x128.Idx → EReal) (ix2 P k) := by
  obtain ⟨e00, e01, -⟩ := idx_facts2 t
  unfold iblk2
  rw [View.read_apply]
  show (V c main_v29 : S50000x128.Idx → EReal) _ = _
  refine congrArg _ (funext fun a => Fin.ext ?_)
  match a with
  | ⟨0, _⟩ => show win2_0.index t (0 : Fin 2) * 5000 + 1 * p.val = P.val; rw [e00, hP]; omega
  | ⟨1, _⟩ => show win2_0.index t (1 : Fin 2) * 128 + 1 * k.val = k.val; rw [e01]; omega
theorem self_blk2 (c : Dev nD) (t : Fin cfg2.N) (p : Fin 5000) (k : Fin 128) (P : Fin 50000) (hP : P.val = t.val * 5000 + p.val) :
    (iblk2 V c 1 t : Vec Ideal S5000x128 .f32) (ix2 p k) = (V c main_v3 : S50000x128.Idx → EReal) (ix2 P k) := by
  obtain ⟨-, -, e10, e11, -⟩ := idx_facts2 t
  unfold iblk2
  rw [View.read_apply]
  show (V c main_v3 : S50000x128.Idx → EReal) _ = _
  refine congrArg _ (funext fun a => Fin.ext ?_)
  match a with
  | ⟨0, _⟩ => show win2_1.index t (0 : Fin 2) * 5000 + 1 * p.val = P.val; rw [e10, hP]; omega
  | ⟨1, _⟩ => show win2_1.index t (1 : Fin 2) * 128 + 1 * k.val = k.val; rw [e11]; omega
/-- The weights' and the bias' blocks are the whole arrays at every point. -/
theorem wl_blk2 (c : Dev nD) (t : Fin cfg2.N) (q k : Fin 128) :
    (iblk2 V c 2 t : Vec Ideal S128x128 .f32) (ix2 q k) = (V c main_v43 : S128x128.Idx → EReal) (ix2 q k) := by
  obtain ⟨-, -, -, -, e20, e21, -⟩ := idx_facts2 t
  unfold iblk2
  rw [View.read_apply]
  show (V c main_v43 : S128x128.Idx → EReal) _ = _
  refine congrArg _ (funext fun a => Fin.ext ?_)
  match a with
  | ⟨0, _⟩ => show win2_2.index t (0 : Fin 2) * 128 + 1 * q.val = q.val; rw [e20]; omega
  | ⟨1, _⟩ => show win2_2.index t (1 : Fin 2) * 128 + 1 * k.val = k.val; rw [e21]; omega
theorem bl_blk2 (c : Dev nD) (t : Fin cfg2.N) (q : Fin 128) :
    (iblk2 V c 3 t : Vec Ideal S1x128 .f32) (ix2 (0 : Fin 1) q) = (V c main_v48 : S1x128.Idx → EReal) (ix2 (0 : Fin 1) q) := by
  obtain ⟨-, -, -, -, -, -, e30, e31, -⟩ := idx_facts2 t
  unfold iblk2
  rw [View.read_apply]
  show (V c main_v48 : S1x128.Idx → EReal) _ = _
  refine congrArg _ (funext fun a => Fin.ext ?_)
  match a with
  | ⟨0, _⟩ => show win2_3.index t (0 : Fin 2) * 1 + 1 * 0 = 0; rw [e30]
  | ⟨1, _⟩ => show win2_3.index t (1 : Fin 2) * 128 + 1 * q.val = q.val; rw [e31]; omega
theorem wr_blk2 (c : Dev nD) (t : Fin cfg2.N) (q k : Fin 128) :
    (iblk2 V c 4 t : Vec Ideal S128x128 .f32) (ix2 q k) = (V c main_v47 : S128x128.Idx → EReal) (ix2 q k) := by
  obtain ⟨-, -, -, -, -, -, -, -, e40, e41, -⟩ := idx_facts2 t
  unfold iblk2
  rw [View.read_apply]
  show (V c main_v47 : S128x128.Idx → EReal) _ = _
  refine congrArg _ (funext fun a => Fin.ext ?_)
  match a with
  | ⟨0, _⟩ => show win2_4.index t (0 : Fin 2) * 128 + 1 * q.val = q.val; rw [e40]; omega
  | ⟨1, _⟩ => show win2_4.index t (1 : Fin 2) * 128 + 1 * k.val = k.val; rw [e41]; omega

/-- The output array after the launch: the SAGE combination of the arrays as the launch finds them. -/
abbrev G2 (c : Dev nD) : S50000x128.Idx → EReal :=
  Cert.Sage.act (V c main_v29) (V c main_v3) (V c main_v43) (Cert.Sage.rowOf (V c main_v48)) (V c main_v47)

/-- What point t writes back is block t of that function. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  obtain ⟨-, -, -, -, -, -, -, -, -, -, e50, e51, hG⟩ := idx_facts2 t
  funext j
  obtain ⟨p, q, rfl⟩ : ∃ (p : Fin 5000) (q : Fin 128), j = ix2 p q := ⟨j 0, j 1, eq_ix2 j⟩
  have hp := p.isLt
  have he : ((cfg2.win 5).blk t).view.emb (ix2 p q) = ix2 (⟨t.val * 5000 + p.val, by omega⟩ : Fin 50000) q :=
    funext fun a => Fin.ext (by
      match a with
      | ⟨0, _⟩ => show win2_5.index t (0 : Fin 2) * 5000 + 1 * p.val = t.val * 5000 + p.val; rw [e50]; omega
      | ⟨1, _⟩ => show win2_5.index t (1 : Fin 2) * 128 + 1 * q.val = q.val; rw [e51]; omega)
  show k2_pay1 (iblk2 V c 0 t) (iblk2 V c 1 t) (iblk2 V c 2 t) (iblk2 V c 4 t) (iblk2 V c 3 t) (ix2 p q)
    = Cert.Sage.act (V c main_v29) (V c main_v3) (V c main_v43) (Cert.Sage.rowOf (V c main_v48)) (V c main_v47) (((cfg2.win 5).blk t).view.emb (ix2 p q))
  rw [he, act_pay_apply (iblk2 V c 0 t) (iblk2 V c 1 t) (iblk2 V c 2 t) (iblk2 V c 4 t) (iblk2 V c 3 t) p q, Cert.Sage.act_ix2, Cert.Sage.rowOf_ix1]
  simp only [agg_blk2 V c t p _ ⟨t.val * 5000 + p.val, by omega⟩ rfl, self_blk2 V c t p _ ⟨t.val * 5000 + p.val, by omega⟩ rfl,
    wl_blk2 V c t q, wr_blk2 V c t q, bl_blk2 V c t q]

/-- Every row is in some point's block: row r in point r / 5000's. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e50, e51, -⟩ := idx_facts2 t
  refine ⟨t, flush2_5 t, ?_⟩
  show i ∈ ((View.whole main_v49).slice (win2_5.rect t)).set
  rw [View.set_slice_whole, Rect.mem_set_unit]
  intro a
  match a with
  | ⟨0, _⟩ => show win2_5.index t (0 : Fin 2) * 5000 ≤ (i 0).val ∧ (i 0).val < win2_5.index t (0 : Fin 2) * 5000 + 5000; rw [e50]; show (i 0).val / 5000 * 5000 ≤ (i 0).val ∧ (i 0).val < (i 0).val / 5000 * 5000 + 5000; omega
  | ⟨1, _⟩ => show win2_5.index t (1 : Fin 2) * 128 ≤ (i 1).val ∧ (i 1).val < win2_5.index t (1 : Fin 2) * 128 + 128; rw [e51]; omega

/-- The output array after the launch. -/
theorem final2 (c : Dev nD) : (dat2 V c).arrAt 5 cfg2.N = G2 V c :=
  (dat2 V c).arrAt_eq_of_cover 5 (G2 V c) (fun t _ => flushed2_eq V c t) (cover2)

end Cert.KernelIdeal.Hand

end
-- ==== Proof.Region3.lean ====
/-
  Kernel launch 3 as one function of whole arrays.

  The launch runs its body at 20 grid points. Point t reads rows 5000·t … 5000·t + 4999 of the aggregated and of the own
  node array, the two whole weight matrices and the bias row, and writes back rows 5000·t … 5000·t + 4999 of the output.
  What it writes is the SAGE combination of those rows: entry (p, q) of the block depends on row 5000·t + p of the two
  node arrays and row q of the weights only. The 20 row blocks tile the 100000 rows, so the output array ends as the SAGE
  combination of the whole arrays as the launch finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the two node arrays' windows and the output's move one row block per point,
    the weights' and the bias' windows stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 20 :=
  (by decide +kernel : ∀ t : Fin grid3.N, _)

/-- A node array's block at point t, entry (p, k), is the array at row 5000·t + p. -/
theorem agg_blk3 (c : Dev nD) (t : Fin cfg3.N) (p : Fin 5000) (k : Fin 128) (P : Fin 100000) (hP : P.val = t.val * 5000 + p.val) :
    (iblk3 V c 0 t : Vec Ideal S5000x128 .f32) (ix2 p k) = (V c main_v41 : S100000x128.Idx → EReal) (ix2 P k) := by
  obtain ⟨e00, e01, -⟩ := idx_facts3 t
  unfold iblk3
  rw [View.read_apply]
  show (V c main_v41 : S100000x128.Idx → EReal) _ = _
  refine congrArg _ (funext fun a => Fin.ext ?_)
  match a with
  | ⟨0, _⟩ => show win3_0.index t (0 : Fin 2) * 5000 + 1 * p.val = P.val; rw [e00, hP]; omega
  | ⟨1, _⟩ => show win3_0.index t (1 : Fin 2) * 128 + 1 * k.val = k.val; rw [e01]; omega
theorem self_blk3 (c : Dev nD) (t : Fin cfg3.N) (p : Fin 5000) (k : Fin 128) (P : Fin 100000) (hP : P.val = t.val * 5000 + p.val) :
    (iblk3 V c 1 t : Vec Ideal S5000x128 .f32) (ix2 p k) = (V c main_v1 : S100000x128.Idx → EReal) (ix2 P k) := by
  obtain ⟨-, -, e10, e11, -⟩ := idx_facts3 t
  unfold iblk3
  rw [View.read_apply]
  show (V c main_v1 : S100000x128.Idx → EReal) _ = _
  refine congrArg _ (funext fun a => Fin.ext ?_)
  match a with
  | ⟨0, _⟩ => show win3_1.index t (0 : Fin 2) * 5000 + 1 * p.val = P.val; rw [e10, hP]; omega
  | ⟨1, _⟩ => show win3_1.index t (1 : Fin 2) * 128 + 1 * k.val = k.val; rw [e11]; omega
/-- The weights' and the bias' blocks are the whole arrays at every point. -/
theorem wl_blk3 (c : Dev nD) (t : Fin cfg3.N) (q k : Fin 128) :
    (iblk3 V c 2 t : Vec Ideal S128x128 .f32) (ix2 q k) = (V c main_v51 : S128x128.Idx → EReal) (ix2 q k) := by
  obtain ⟨-, -, -, -, e20, e21, -⟩ := idx_facts3 t
  unfold iblk3
  rw [View.read_apply]
  show (V c main_v51 : S128x128.Idx → EReal) _ = _
  refine congrArg _ (funext fun a => Fin.ext ?_)
  match a with
  | ⟨0, _⟩ => show win3_2.index t (0 : Fin 2) * 128 + 1 * q.val = q.val; rw [e20]; omega
  | ⟨1, _⟩ => show win3_2.index t (1 : Fin 2) * 128 + 1 * k.val = k.val; rw [e21]; omega
theorem bl_blk3 (c : Dev nD) (t : Fin cfg3.N) (q : Fin 128) :
    (iblk3 V c 3 t : Vec Ideal S1x128 .f32) (ix2 (0 : Fin 1) q) = (V c main_v56 : S1x128.Idx → EReal) (ix2 (0 : Fin 1) q) := by
  obtain ⟨-, -, -, -, -, -, e30, e31, -⟩ := idx_facts3 t
  unfold iblk3
  rw [View.read_apply]
  show (V c main_v56 : S1x128.Idx → EReal) _ = _
  refine congrArg _ (funext fun a => Fin.ext ?_)
  match a with
  | ⟨0, _⟩ => show win3_3.index t (0 : Fin 2) * 1 + 1 * 0 = 0; rw [e30]
  | ⟨1, _⟩ => show win3_3.index t (1 : Fin 2) * 128 + 1 * q.val = q.val; rw [e31]; omega
theorem wr_blk3 (c : Dev nD) (t : Fin cfg3.N) (q k : Fin 128) :
    (iblk3 V c 4 t : Vec Ideal S128x128 .f32) (ix2 q k) = (V c main_v55 : S128x128.Idx → EReal) (ix2 q k) := by
  obtain ⟨-, -, -, -, -, -, -, -, e40, e41, -⟩ := idx_facts3 t
  unfold iblk3
  rw [View.read_apply]
  show (V c main_v55 : S128x128.Idx → EReal) _ = _
  refine congrArg _ (funext fun a => Fin.ext ?_)
  match a with
  | ⟨0, _⟩ => show win3_4.index t (0 : Fin 2) * 128 + 1 * q.val = q.val; rw [e40]; omega
  | ⟨1, _⟩ => show win3_4.index t (1 : Fin 2) * 128 + 1 * k.val = k.val; rw [e41]; omega

/-- The output array after the launch: the SAGE combination of the arrays as the launch finds them. -/
abbrev G3 (c : Dev nD) : S100000x128.Idx → EReal :=
  Cert.Sage.act (V c main_v41) (V c main_v1) (V c main_v51) (Cert.Sage.rowOf (V c main_v56)) (V c main_v55)

/-- What point t writes back is block t of that function. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S128x128) hz3, View.ld_unit_zero (S := S1x128) hz3]
  obtain ⟨-, -, -, -, -, -, -, -, -, -, e50, e51, hG⟩ := idx_facts3 t
  funext j
  obtain ⟨p, q, rfl⟩ : ∃ (p : Fin 5000) (q : Fin 128), j = ix2 p q := ⟨j 0, j 1, eq_ix2 j⟩
  have hp := p.isLt
  have he : ((cfg3.win 5).blk t).view.emb (ix2 p q) = ix2 (⟨t.val * 5000 + p.val, by omega⟩ : Fin 100000) q :=
    funext fun a => Fin.ext (by
      match a with
      | ⟨0, _⟩ => show win3_5.index t (0 : Fin 2) * 5000 + 1 * p.val = t.val * 5000 + p.val; rw [e50]; omega
      | ⟨1, _⟩ => show win3_5.index t (1 : Fin 2) * 128 + 1 * q.val = q.val; rw [e51]; omega)
  show k3_pay1 (iblk3 V c 0 t) (iblk3 V c 1 t) (iblk3 V c 2 t) (iblk3 V c 4 t) (iblk3 V c 3 t) (ix2 p q)
    = Cert.Sage.act (V c main_v41) (V c main_v1) (V c main_v51) (Cert.Sage.rowOf (V c main_v56)) (V c main_v55) (((cfg3.win 5).blk t).view.emb (ix2 p q))
  rw [he, k3_pay_eq, act_pay_apply (iblk3 V c 0 t) (iblk3 V c 1 t) (iblk3 V c 2 t) (iblk3 V c 4 t) (iblk3 V c 3 t) p q, Cert.Sage.act_ix2, Cert.Sage.rowOf_ix1]
  simp only [agg_blk3 V c t p _ ⟨t.val * 5000 + p.val, by omega⟩ rfl, self_blk3 V c t p _ ⟨t.val * 5000 + p.val, by omega⟩ rfl,
    wl_blk3 V c t q, wr_blk3 V c t q, bl_blk3 V c t q]

/-- Every row is in some point's block: row r in point r / 5000's. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, -, e50, e51, -⟩ := idx_facts3 t
  refine ⟨t, flush3_5 t, ?_⟩
  show i ∈ ((View.whole main_v57).slice (win3_5.rect t)).set
  rw [View.set_slice_whole, Rect.mem_set_unit]
  intro a
  match a with
  | ⟨0, _⟩ => show win3_5.index t (0 : Fin 2) * 5000 ≤ (i 0).val ∧ (i 0).val < win3_5.index t (0 : Fin 2) * 5000 + 5000; rw [e50]; show (i 0).val / 5000 * 5000 ≤ (i 0).val ∧ (i 0).val < (i 0).val / 5000 * 5000 + 5000; omega
  | ⟨1, _⟩ => show win3_5.index t (1 : Fin 2) * 128 ≤ (i 1).val ∧ (i 1).val < win3_5.index t (1 : Fin 2) * 128 + 128; rw [e51]; omega

/-- The output array after the launch. -/
theorem final3 (c : Dev nD) : (dat3 V c).arrAt 5 cfg3.N = G3 V c :=
  (dat3 V c).arrAt_eq_of_cover 5 (G3 V c) (fun t _ => flushed3_eq V c t) (cover3)

end Cert.KernelIdeal.Hand

end
-- ==== Proof.ChainB.lean ====
/-
  The first SAGE layer: both launches' outputs are the reference's rectified layer.

  The product nodes' launch combines the aggregated user rows with the product rows; the user nodes' launch the other
  way round. Between them a short host stretch slices the second relation's weights out of the stacked arrays.
-/
import proofs.«106916_j56624848830739_1_alg».proof.Proof.ChainA
import proofs.«106916_j56624848830739_1_alg».proof.Proof.Region2
import proofs.«106916_j56624848830739_1_alg».proof.Proof.Region3
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem F6_v49 : W6 m ρ c (no_index (Proc.devRef .tc main_v49)) = (Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [show W6 m ρ c (Proc.devRef .tc main_v49) = (dat2 (V5 m ρ) c).arrAt 5 cfg2.N from W6_arr m ρ c 5, final2 (V5 m ρ) c]
  simp (disch := decide) only [G2, V5, launchKeep0, launchKeep1, hostKeep0, hostKeep1, hostKeep2, F1_v0, F2_v1, F3_v2, F4_v3, F5_v10, F5_v17, F5_v29, F5_v41, F5_v43, F5_v47, F5_v48]
  rw [Cert.Sage.rowOf_shapeCast]
  exact (Cert.ReferenceIdeal.Hand.ref_act50000 _ _ _ _ _ _ _ _ _ _).symm
theorem F7_v51 : W7 m ρ c (no_index (Proc.devRef .tc main_v51)) = (Cert.ReferenceIdeal.Read.val_main_v63 (F := Ideal) (m ((c : Thread nD τ).loc main_arg13))) := by
  show StableHlo.after hostOps3 (W6 m ρ c) (Proc.devRef .tc main_v51) = _
  after_results_simp
  try simp (disch := decide) only [launchKeep0, launchKeep1, launchKeep2, hostKeep0, hostKeep1, hostKeep2, F1_v0, F2_v1, F3_v2, F4_v3, F5_v10, F5_v17, F5_v29, F5_v41, F5_v43, F5_v47, F5_v48, F6_v49]
  try rfl
theorem F7_v55 : W7 m ρ c (no_index (Proc.devRef .tc main_v55)) = (Cert.ReferenceIdeal.Read.val_main_v72 (F := Ideal) (m ((c : Thread nD τ).loc main_arg15))) := by
  show StableHlo.after hostOps3 (W6 m ρ c) (Proc.devRef .tc main_v55) = _
  after_results_simp
  try simp (disch := decide) only [launchKeep0, launchKeep1, launchKeep2, hostKeep0, hostKeep1, hostKeep2, F1_v0, F2_v1, F3_v2, F4_v3, F5_v10, F5_v17, F5_v29, F5_v41, F5_v43, F5_v47, F5_v48, F6_v49]
  try rfl
theorem F7_v56 : W7 m ρ c (no_index (Proc.devRef .tc main_v56)) = shapeCast S1x128 (Cert.ReferenceIdeal.Read.val_main_v67 (F := Ideal) (m ((c : Thread nD τ).loc main_arg14))) Facts₀.shapeCasts_S128_S1x128 := by
  show StableHlo.after hostOps3 (W6 m ρ c) (Proc.devRef .tc main_v56) = _
  after_results_simp
  try simp (disch := decide) only [launchKeep0, launchKeep1, launchKeep2, hostKeep0, hostKeep1, hostKeep2, F1_v0, F2_v1, F3_v2, F4_v3, F5_v10, F5_v17, F5_v29, F5_v41, F5_v43, F5_v47, F5_v48, F6_v49]
  try rfl
theorem F8_v57 : W8 m ρ c (no_index (Proc.devRef .tc main_v57)) = (Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  rw [show W8 m ρ c (Proc.devRef .tc main_v57) = (dat3 (V7 m ρ) c).arrAt 5 cfg3.N from W8_arr m ρ c 5, final3 (V7 m ρ) c]
  simp (disch := decide) only [G3, V7, launchKeep0, launchKeep1, launchKeep2, hostKeep0, hostKeep1, hostKeep2, hostKeep3, F1_v0, F2_v1, F3_v2, F4_v3, F5_v10, F5_v17, F5_v29, F5_v41, F5_v43, F5_v47, F5_v48, F6_v49, F7_v51, F7_v55, F7_v56]
  rw [Cert.Sage.rowOf_shapeCast]
  exact (Cert.ReferenceIdeal.Hand.ref_act100000 _ _ _ _ _ _ _ _ _ _).symm

end Cert.KernelIdeal.Hand

end
-- ==== Proof.Region4.lean ====
/-
  Kernel launch 4 as one function of whole arrays.

  The launch runs its body at 10 grid points. Point t reads rows 5000·t … 5000·t + 4999 of the aggregated and of the own
  node array, the two whole weight matrices and the bias row, and writes back rows 5000·t … 5000·t + 4999 of the output.
  What it writes is the SAGE combination of those rows: entry (p, q) of the block depends on row 5000·t + p of the two
  node arrays and row q of the weights only. The 10 row blocks tile the 50000 rows, so the output array ends as the SAGE
  combination of the whole arrays as the launch finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the two node arrays' windows and the output's move one row block per point,
    the weights' and the bias' windows stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 10 :=
  (by decide +kernel : ∀ t : Fin grid4.N, _)

/-- A node array's block at point t, entry (p, k), is the array at row 5000·t + p. -/
theorem agg_blk4 (c : Dev nD) (t : Fin cfg4.N) (p : Fin 5000) (k : Fin 128) (P : Fin 50000) (hP : P.val = t.val * 5000 + p.val) :
    (iblk4 V c 0 t : Vec Ideal S5000x128 .f32) (ix2 p k) = (V c main_v69 : S50000x128.Idx → EReal) (ix2 P k) := by
  obtain ⟨e00, e01, -⟩ := idx_facts4 t
  unfold iblk4
  rw [View.read_apply]
  show (V c main_v69 : S50000x128.Idx → EReal) _ = _
  refine congrArg _ (funext fun a => Fin.ext ?_)
  match a with
  | ⟨0, _⟩ => show win4_0.index t (0 : Fin 2) * 5000 + 1 * p.val = P.val; rw [e00, hP]; omega
  | ⟨1, _⟩ => show win4_0.index t (1 : Fin 2) * 128 + 1 * k.val = k.val; rw [e01]; omega
theorem self_blk4 (c : Dev nD) (t : Fin cfg4.N) (p : Fin 5000) (k : Fin 128) (P : Fin 50000) (hP : P.val = t.val * 5000 + p.val) :
    (iblk4 V c 1 t : Vec Ideal S5000x128 .f32) (ix2 p k) = (V c main_v49 : S50000x128.Idx → EReal) (ix2 P k) := by
  obtain ⟨-, -, e10, e11, -⟩ := idx_facts4 t
  unfold iblk4
  rw [View.read_apply]
  show (V c main_v49 : S50000x128.Idx → EReal) _ = _
  refine congrArg _ (funext fun a => Fin.ext ?_)
  match a with
  | ⟨0, _⟩ => show win4_1.index t (0 : Fin 2) * 5000 + 1 * p.val = P.val; rw [e10, hP]; omega
  | ⟨1, _⟩ => show win4_1.index t (1 : Fin 2) * 128 + 1 * k.val = k.val; rw [e11]; omega
/-- The weights' and the bias' blocks are the whole arrays at every point. -/
theorem wl_blk4 (c : Dev nD) (t : Fin cfg4.N) (q k : Fin 128) :
    (iblk4 V c 2 t : Vec Ideal S128x128 .f32) (ix2 q k) = (V c main_v83 : S128x128.Idx → EReal) (ix2 q k) := by
  obtain ⟨-, -, -, -, e20, e21, -⟩ := idx_facts4 t
  unfold iblk4
  rw [View.read_apply]
  show (V c main_v83 : S128x128.Idx → EReal) _ = _
  refine congrArg _ (funext fun a => Fin.ext ?_)
  match a with
  | ⟨0, _⟩ => show win4_2.index t (0 : Fin 2) * 128 + 1 * q.val = q.val; rw [e20]; omega
  | ⟨1, _⟩ => show win4_2.index t (1 : Fin 2) * 128 + 1 * k.val = k.val; rw [e21]; omega
theorem bl_blk4 (c : Dev nD) (t : Fin cfg4.N) (q : Fin 128) :
    (iblk4 V c 3 t : Vec Ideal S1x128 .f32) (ix2 (0 : Fin 1) q) = (V c main_v88 : S1x128.Idx → EReal) (ix2 (0 : Fin 1) q) := by
  obtain ⟨-, -, -, -, -, -, e30, e31, -⟩ := idx_facts4 t
  unfold iblk4
  rw [View.read_apply]
  show (V c main_v88 : S1x128.Idx → EReal) _ = _
  refine congrArg _ (funext fun a => Fin.ext ?_)
  match a with
  | ⟨0, _⟩ => show win4_3.index t (0 : Fin 2) * 1 + 1 * 0 = 0; rw [e30]
  | ⟨1, _⟩ => show win4_3.index t (1 : Fin 2) * 128 + 1 * q.val = q.val; rw [e31]; omega
theorem wr_blk4 (c : Dev nD) (t : Fin cfg4.N) (q k : Fin 128) :
    (iblk4 V c 4 t : Vec Ideal S128x128 .f32) (ix2 q k) = (V c main_v87 : S128x128.Idx → EReal) (ix2 q k) := by
  obtain ⟨-, -, -, -, -, -, -, -, e40, e41, -⟩ := idx_facts4 t
  unfold iblk4
  rw [View.read_apply]
  show (V c main_v87 : S128x128.Idx → EReal) _ = _
  refine congrArg _ (funext fun a => Fin.ext ?_)
  match a with
  | ⟨0, _⟩ => show win4_4.index t (0 : Fin 2) * 128 + 1 * q.val = q.val; rw [e40]; omega
  | ⟨1, _⟩ => show win4_4.index t (1 : Fin 2) * 128 + 1 * k.val = k.val; rw [e41]; omega

/-- The output array after the launch: the SAGE combination of the arrays as the launch finds them. -/
abbrev G4 (c : Dev nD) : S50000x128.Idx → EReal :=
  Cert.Sage.act (V c main_v69) (V c main_v49) (V c main_v83) (Cert.Sage.rowOf (V c main_v88)) (V c main_v87)

/-- What point t writes back is block t of that function. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S5000x128) hz4, View.ld_unit_zero (S := S128x128) hz4, View.ld_unit_zero (S := S1x128) hz4]
  obtain ⟨-, -, -, -, -, -, -, -, -, -, e50, e51, hG⟩ := idx_facts4 t
  funext j
  obtain ⟨p, q, rfl⟩ : ∃ (p : Fin 5000) (q : Fin 128), j = ix2 p q := ⟨j 0, j 1, eq_ix2 j⟩
  have hp := p.isLt
  have he : ((cfg4.win 5).blk t).view.emb (ix2 p q) = ix2 (⟨t.val * 5000 + p.val, by omega⟩ : Fin 50000) q :=
    funext fun a => Fin.ext (by
      match a with
      | ⟨0, _⟩ => show win4_5.index t (0 : Fin 2) * 5000 + 1 * p.val = t.val * 5000 + p.val; rw [e50]; omega
      | ⟨1, _⟩ => show win4_5.index t (1 : Fin 2) * 128 + 1 * q.val = q.val; rw [e51]; omega)
  show k4_pay1 (iblk4 V c 0 t) (iblk4 V c 1 t) (iblk4 V c 2 t) (iblk4 V c 4 t) (iblk4 V c 3 t) (ix2 p q)
    = Cert.Sage.act (V c main_v69) (V c main_v49) (V c main_v83) (Cert.Sage.rowOf (V c main_v88)) (V c main_v87) (((cfg4.win 5).blk t).view.emb (ix2 p q))
  rw [he, k4_pay_eq, act_pay_apply (iblk4 V c 0 t) (iblk4 V c 1 t) (iblk4 V c 2 t) (iblk4 V c 4 t) (iblk4 V c 3 t) p q, Cert.Sage.act_ix2, Cert.Sage.rowOf_ix1]
  simp only [agg_blk4 V c t p _ ⟨t.val * 5000 + p.val, by omega⟩ rfl, self_blk4 V c t p _ ⟨t.val * 5000 + p.val, by omega⟩ rfl,
    wl_blk4 V c t q, wr_blk4 V c t q, bl_blk4 V c t q]

/-- Every row is in some point's block: row r in point r / 5000's. -/
theorem cover4 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, -, -, -, -, e50, e51, -⟩ := idx_facts4 t
  refine ⟨t, flush4_5 t, ?_⟩
  show i ∈ ((View.whole main_v89).slice (win4_5.rect t)).set
  rw [View.set_slice_whole, Rect.mem_set_unit]
  intro a
  match a with
  | ⟨0, _⟩ => show win4_5.index t (0 : Fin 2) * 5000 ≤ (i 0).val ∧ (i 0).val < win4_5.index t (0 : Fin 2) * 5000 + 5000; rw [e50]; show (i 0).val / 5000 * 5000 ≤ (i 0).val ∧ (i 0).val < (i 0).val / 5000 * 5000 + 5000; omega
  | ⟨1, _⟩ => show win4_5.index t (1 : Fin 2) * 128 ≤ (i 1).val ∧ (i 1).val < win4_5.index t (1 : Fin 2) * 128 + 128; rw [e51]; omega

/-- The output array after the launch. -/
theorem final4 (c : Dev nD) : (dat4 V c).arrAt 5 cfg4.N = G4 V c :=
  (dat4 V c).arrAt_eq_of_cover 5 (G4 V c) (fun t _ => flushed4_eq V c t) (cover4)

end Cert.KernelIdeal.Hand

end
-- ==== Proof.Region5.lean ====
/-
  Kernel launch 5 as one function of whole arrays.

  The launch runs its body at 20 grid points. Point t reads rows 5000·t … 5000·t + 4999 of the aggregated and of the own
  node array, the two whole weight matrices and the bias row, and writes back rows 5000·t … 5000·t + 4999 of the output.
  What it writes is the SAGE combination of those rows: entry (p, q) of the block depends on row 5000·t + p of the two
  node arrays and row q of the weights only. The 20 row blocks tile the 100000 rows, so the output array ends as the SAGE
  combination of the whole arrays as the launch finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the two node arrays' windows and the output's move one row block per point,
    the weights' and the bias' windows stay. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 20 :=
  (by decide +kernel : ∀ t : Fin grid5.N, _)

/-- A node array's block at point t, entry (p, k), is the array at row 5000·t + p. -/
theorem agg_blk5 (c : Dev nD) (t : Fin cfg5.N) (p : Fin 5000) (k : Fin 128) (P : Fin 100000) (hP : P.val = t.val * 5000 + p.val) :
    (iblk5 V c 0 t : Vec Ideal S5000x128 .f32) (ix2 p k) = (V c main_v81 : S100000x128.Idx → EReal) (ix2 P k) := by
  obtain ⟨e00, e01, -⟩ := idx_facts5 t
  unfold iblk5
  rw [View.read_apply]
  show (V c main_v81 : S100000x128.Idx → EReal) _ = _
  refine congrArg _ (funext fun a => Fin.ext ?_)
  match a with
  | ⟨0, _⟩ => show win5_0.index t (0 : Fin 2) * 5000 + 1 * p.val = P.val; rw [e00, hP]; omega
  | ⟨1, _⟩ => show win5_0.index t (1 : Fin 2) * 128 + 1 * k.val = k.val; rw [e01]; omega
theorem self_blk5 (c : Dev nD) (t : Fin cfg5.N) (p : Fin 5000) (k : Fin 128) (P : Fin 100000) (hP : P.val = t.val * 5000 + p.val) :
    (iblk5 V c 1 t : Vec Ideal S5000x128 .f32) (ix2 p k) = (V c main_v57 : S100000x128.Idx → EReal) (ix2 P k) := by
  obtain ⟨-, -, e10, e11, -⟩ := idx_facts5 t
  unfold iblk5
  rw [View.read_apply]
  show (V c main_v57 : S100000x128.Idx → EReal) _ = _
  refine congrArg _ (funext fun a => Fin.ext ?_)
  match a with
  | ⟨0, _⟩ => show win5_1.index t (0 : Fin 2) * 5000 + 1 * p.val = P.val; rw [e10, hP]; omega
  | ⟨1, _⟩ => show win5_1.index t (1 : Fin 2) * 128 + 1 * k.val = k.val; rw [e11]; omega
/-- The weights' and the bias' blocks are the whole arrays at every point. -/
theorem wl_blk5 (c : Dev nD) (t : Fin cfg5.N) (q k : Fin 128) :
    (iblk5 V c 2 t : Vec Ideal S128x128 .f32) (ix2 q k) = (V c main_v91 : S128x128.Idx → EReal) (ix2 q k) := by
  obtain ⟨-, -, -, -, e20, e21, -⟩ := idx_facts5 t
  unfold iblk5
  rw [View.read_apply]
  show (V c main_v91 : S128x128.Idx → EReal) _ = _
  refine congrArg _ (funext fun a => Fin.ext ?_)
  match a with
  | ⟨0, _⟩ => show win5_2.index t (0 : Fin 2) * 128 + 1 * q.val = q.val; rw [e20]; omega
  | ⟨1, _⟩ => show win5_2.index t (1 : Fin 2) * 128 + 1 * k.val = k.val; rw [e21]; omega
theorem bl_blk5 (c : Dev nD) (t : Fin cfg5.N) (q : Fin 128) :
    (iblk5 V c 3 t : Vec Ideal S1x128 .f32) (ix2 (0 : Fin 1) q) = (V c main_v96 : S1x128.Idx → EReal) (ix2 (0 : Fin 1) q) := by
  obtain ⟨-, -, -, -, -, -, e30, e31, -⟩ := idx_facts5 t
  unfold iblk5
  rw [View.read_apply]
  show (V c main_v96 : S1x128.Idx → EReal) _ = _
  refine congrArg _ (funext fun a => Fin.ext ?_)
  match a with
  | ⟨0, _⟩ => show win5_3.index t (0 : Fin 2) * 1 + 1 * 0 = 0; rw [e30]
  | ⟨1, _⟩ => show win5_3.index t (1 : Fin 2) * 128 + 1 * q.val = q.val; rw [e31]; omega
theorem wr_blk5 (c : Dev nD) (t : Fin cfg5.N) (q k : Fin 128) :
    (iblk5 V c 4 t : Vec Ideal S128x128 .f32) (ix2 q k) = (V c main_v95 : S128x128.Idx → EReal) (ix2 q k) := by
  obtain ⟨-, -, -, -, -, -, -, -, e40, e41, -⟩ := idx_facts5 t
  unfold iblk5
  rw [View.read_apply]
  show (V c main_v95 : S128x128.Idx → EReal) _ = _
  refine congrArg _ (funext fun a => Fin.ext ?_)
  match a with
  | ⟨0, _⟩ => show win5_4.index t (0 : Fin 2) * 128 + 1 * q.val = q.val; rw [e40]; omega
  | ⟨1, _⟩ => show win5_4.index t (1 : Fin 2) * 128 + 1 * k.val = k.val; rw [e41]; omega

/-- The output array after the launch: the SAGE combination of the arrays as the launch finds them. -/
abbrev G5 (c : Dev nD) : S100000x128.Idx → EReal :=
  Cert.Sage.act (V c main_v81) (V c main_v57) (V c main_v91) (Cert.Sage.rowOf (V c main_v96)) (V c main_v95)

/-- What point t writes back is block t of that function. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S128x128) hz5, View.ld_unit_zero (S := S1x128) hz5]
  obtain ⟨-, -, -, -, -, -, -, -, -, -, e50, e51, hG⟩ := idx_facts5 t
  funext j
  obtain ⟨p, q, rfl⟩ : ∃ (p : Fin 5000) (q : Fin 128), j = ix2 p q := ⟨j 0, j 1, eq_ix2 j⟩
  have hp := p.isLt
  have he : ((cfg5.win 5).blk t).view.emb (ix2 p q) = ix2 (⟨t.val * 5000 + p.val, by omega⟩ : Fin 100000) q :=
    funext fun a => Fin.ext (by
      match a with
      | ⟨0, _⟩ => show win5_5.index t (0 : Fin 2) * 5000 + 1 * p.val = t.val * 5000 + p.val; rw [e50]; omega
      | ⟨1, _⟩ => show win5_5.index t (1 : Fin 2) * 128 + 1 * q.val = q.val; rw [e51]; omega)
  show k5_pay1 (iblk5 V c 0 t) (iblk5 V c 1 t) (iblk5 V c 2 t) (iblk5 V c 4 t) (iblk5 V c 3 t) (ix2 p q)
    = Cert.Sage.act (V c main_v81) (V c main_v57) (V c main_v91) (Cert.Sage.rowOf (V c main_v96)) (V c main_v95) (((cfg5.win 5).blk t).view.emb (ix2 p q))
  rw [he, k5_pay_eq, act_pay_apply (iblk5 V c 0 t) (iblk5 V c 1 t) (iblk5 V c 2 t) (iblk5 V c 4 t) (iblk5 V c 3 t) p q, Cert.Sage.act_ix2, Cert.Sage.rowOf_ix1]
  simp only [agg_blk5 V c t p _ ⟨t.val * 5000 + p.val, by omega⟩ rfl, self_blk5 V c t p _ ⟨t.val * 5000 + p.val, by omega⟩ rfl,
    wl_blk5 V c t q, wr_blk5 V c t q, bl_blk5 V c t q]

/-- Every row is in some point's block: row r in point r / 5000's. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨-, -, -, -, -, -, -, -, -, -, e50, e51, -⟩ := idx_facts5 t
  refine ⟨t, flush5_5 t, ?_⟩
  show i ∈ ((View.whole main_v97).slice (win5_5.rect t)).set
  rw [View.set_slice_whole, Rect.mem_set_unit]
  intro a
  match a with
  | ⟨0, _⟩ => show win5_5.index t (0 : Fin 2) * 5000 ≤ (i 0).val ∧ (i 0).val < win5_5.index t (0 : Fin 2) * 5000 + 5000; rw [e50]; show (i 0).val / 5000 * 5000 ≤ (i 0).val ∧ (i 0).val < (i 0).val / 5000 * 5000 + 5000; omega
  | ⟨1, _⟩ => show win5_5.index t (1 : Fin 2) * 128 ≤ (i 1).val ∧ (i 1).val < win5_5.index t (1 : Fin 2) * 128 + 128; rw [e51]; omega

/-- The output array after the launch. -/
theorem final5 (c : Dev nD) : (dat5 V c).arrAt 5 cfg5.N = G5 V c :=
  (dat5 V c).arrAt_eq_of_cover 5 (G5 V c) (fun t _ => flushed5_eq V c t) (cover5)

end Cert.KernelIdeal.Hand

end
-- ==== Proof.ChainC.lean ====
/-
  The second SAGE layer.

  The host stretch before it gathers the first layer's rows along the edges, sums them per destination node, divides by
  the degrees computed once at the start, and slices the layer's weights; the two launches then combine as before.
-/
import proofs.«106916_j56624848830739_1_alg».proof.Proof.ChainB
import proofs.«106916_j56624848830739_1_alg».proof.Proof.Region4
import proofs.«106916_j56624848830739_1_alg».proof.Proof.Region5
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem F9_v69 : W9 m ρ c (no_index (Proc.devRef .tc main_v69)) = (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  show StableHlo.after hostOps4 (W8 m ρ c) (Proc.devRef .tc main_v69) = _
  after_results_simp
  try simp (disch := decide) only [launchKeep0, launchKeep1, launchKeep2, launchKeep3, hostKeep0, hostKeep1, hostKeep2, hostKeep3, F1_v0, F2_v1, F3_v2, F4_v3, F5_v10, F5_v17, F5_v29, F5_v41, F5_v43, F5_v47, F5_v48, F6_v49, F7_v51, F7_v55, F7_v56, F8_v57]
  try rfl
theorem F9_v81 : W9 m ρ c (no_index (Proc.devRef .tc main_v81)) = (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps4 (W8 m ρ c) (Proc.devRef .tc main_v81) = _
  after_results_simp
  try simp (disch := decide) only [launchKeep0, launchKeep1, launchKeep2, launchKeep3, hostKeep0, hostKeep1, hostKeep2, hostKeep3, F1_v0, F2_v1, F3_v2, F4_v3, F5_v10, F5_v17, F5_v29, F5_v41, F5_v43, F5_v47, F5_v48, F6_v49, F7_v51, F7_v55, F7_v56, F8_v57]
  try rfl
theorem F9_v83 : W9 m ρ c (no_index (Proc.devRef .tc main_v83)) = (Cert.ReferenceIdeal.Read.val_main_v103 (F := Ideal) (m ((c : Thread nD τ).loc main_arg10))) := by
  show StableHlo.after hostOps4 (W8 m ρ c) (Proc.devRef .tc main_v83) = _
  after_results_simp
  try simp (disch := decide) only [launchKeep0, launchKeep1, launchKeep2, launchKeep3, hostKeep0, hostKeep1, hostKeep2, hostKeep3, F1_v0, F2_v1, F3_v2, F4_v3, F5_v10, F5_v17, F5_v29, F5_v41, F5_v43, F5_v47, F5_v48, F6_v49, F7_v51, F7_v55, F7_v56, F8_v57]
  try rfl
theorem F9_v87 : W9 m ρ c (no_index (Proc.devRef .tc main_v87)) = (Cert.ReferenceIdeal.Read.val_main_v112 (F := Ideal) (m ((c : Thread nD τ).loc main_arg12))) := by
  show StableHlo.after hostOps4 (W8 m ρ c) (Proc.devRef .tc main_v87) = _
  after_results_simp
  try simp (disch := decide) only [launchKeep0, launchKeep1, launchKeep2, launchKeep3, hostKeep0, hostKeep1, hostKeep2, hostKeep3, F1_v0, F2_v1, F3_v2, F4_v3, F5_v10, F5_v17, F5_v29, F5_v41, F5_v43, F5_v47, F5_v48, F6_v49, F7_v51, F7_v55, F7_v56, F8_v57]
  try rfl
theorem F9_v88 : W9 m ρ c (no_index (Proc.devRef .tc main_v88)) = shapeCast S1x128 (Cert.ReferenceIdeal.Read.val_main_v107 (F := Ideal) (m ((c : Thread nD τ).loc main_arg11))) Facts₀.shapeCasts_S128_S1x128 := by
  show StableHlo.after hostOps4 (W8 m ρ c) (Proc.devRef .tc main_v88) = _
  after_results_simp
  try simp (disch := decide) only [launchKeep0, launchKeep1, launchKeep2, launchKeep3, hostKeep0, hostKeep1, hostKeep2, hostKeep3, F1_v0, F2_v1, F3_v2, F4_v3, F5_v10, F5_v17, F5_v29, F5_v41, F5_v43, F5_v47, F5_v48, F6_v49, F7_v51, F7_v55, F7_v56, F8_v57]
  try rfl
theorem F10_v89 : W10 m ρ c (no_index (Proc.devRef .tc main_v89)) = (Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W10 m ρ c (Proc.devRef .tc main_v89) = (dat4 (V9 m ρ) c).arrAt 5 cfg4.N from W10_arr m ρ c 5, final4 (V9 m ρ) c]
  simp (disch := decide) only [G4, V9, launchKeep0, launchKeep1, launchKeep2, launchKeep3, hostKeep0, hostKeep1, hostKeep2, hostKeep3, hostKeep4, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88]
  rw [Cert.Sage.rowOf_shapeCast]
  exact (Cert.ReferenceIdeal.Hand.ref_act50000 _ _ _ _ _ _ _ _ _ _).symm
theorem F11_v91 : W11 m ρ c (no_index (Proc.devRef .tc main_v91)) = (Cert.ReferenceIdeal.Read.val_main_v117 (F := Ideal) (m ((c : Thread nD τ).loc main_arg13))) := by
  show StableHlo.after hostOps5 (W10 m ρ c) (Proc.devRef .tc main_v91) = _
  after_results_simp
  try simp (disch := decide) only [launchKeep0, launchKeep1, launchKeep2, launchKeep3, launchKeep4, hostKeep0, hostKeep1, hostKeep2, hostKeep3, hostKeep4, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89]
  try rfl
theorem F11_v95 : W11 m ρ c (no_index (Proc.devRef .tc main_v95)) = (Cert.ReferenceIdeal.Read.val_main_v126 (F := Ideal) (m ((c : Thread nD τ).loc main_arg15))) := by
  show StableHlo.after hostOps5 (W10 m ρ c) (Proc.devRef .tc main_v95) = _
  after_results_simp
  try simp (disch := decide) only [launchKeep0, launchKeep1, launchKeep2, launchKeep3, launchKeep4, hostKeep0, hostKeep1, hostKeep2, hostKeep3, hostKeep4, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89]
  try rfl
theorem F11_v96 : W11 m ρ c (no_index (Proc.devRef .tc main_v96)) = shapeCast S1x128 (Cert.ReferenceIdeal.Read.val_main_v121 (F := Ideal) (m ((c : Thread nD τ).loc main_arg14))) Facts₀.shapeCasts_S128_S1x128 := by
  show StableHlo.after hostOps5 (W10 m ρ c) (Proc.devRef .tc main_v96) = _
  after_results_simp
  try simp (disch := decide) only [launchKeep0, launchKeep1, launchKeep2, launchKeep3, launchKeep4, hostKeep0, hostKeep1, hostKeep2, hostKeep3, hostKeep4, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89]
  try rfl
theorem F12_v97 : W12 m ρ c (no_index (Proc.devRef .tc main_v97)) = (Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W12 m ρ c (Proc.devRef .tc main_v97) = (dat5 (V11 m ρ) c).arrAt 5 cfg5.N from W12_arr m ρ c 5, final5 (V11 m ρ) c]
  simp (disch := decide) only [G5, V11, launchKeep0, launchKeep1, launchKeep2, launchKeep3, launchKeep4, hostKeep0, hostKeep1, hostKeep2, hostKeep3, hostKeep4, hostKeep5, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96]
  rw [Cert.Sage.rowOf_shapeCast]
  exact (Cert.ReferenceIdeal.Hand.ref_act100000 _ _ _ _ _ _ _ _ _ _).symm

end Cert.KernelIdeal.Hand

end
-- ==== Proof.Region6.lean ====
/-
  Kernel launch 6 as one function of whole arrays.

  The launch runs its body at 10 grid points. Point t reads rows 5000·t … 5000·t + 4999 of the aggregated and of the own
  node array, the two whole weight matrices and the bias row, and writes back rows 5000·t … 5000·t + 4999 of the output.
  What it writes is the SAGE combination of those rows: entry (p, q) of the block depends on row 5000·t + p of the two
  node arrays and row q of the weights only. The 10 row blocks tile the 50000 rows, so the output array ends as the SAGE
  combination of the whole arrays as the launch finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the two node arrays' windows and the output's move one row block per point,
    the weights' and the bias' windows stay. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 ∧ t.val < 10 :=
  (by decide +kernel : ∀ t : Fin grid6.N, _)

/-- A node array's block at point t, entry (p, k), is the array at row 5000·t + p. -/
theorem agg_blk6 (c : Dev nD) (t : Fin cfg6.N) (p : Fin 5000) (k : Fin 128) (P : Fin 50000) (hP : P.val = t.val * 5000 + p.val) :
    (iblk6 V c 0 t : Vec Ideal S5000x128 .f32) (ix2 p k) = (V c main_v109 : S50000x128.Idx → EReal) (ix2 P k) := by
  obtain ⟨e00, e01, -⟩ := idx_facts6 t
  unfold iblk6
  rw [View.read_apply]
  show (V c main_v109 : S50000x128.Idx → EReal) _ = _
  refine congrArg _ (funext fun a => Fin.ext ?_)
  match a with
  | ⟨0, _⟩ => show win6_0.index t (0 : Fin 2) * 5000 + 1 * p.val = P.val; rw [e00, hP]; omega
  | ⟨1, _⟩ => show win6_0.index t (1 : Fin 2) * 128 + 1 * k.val = k.val; rw [e01]; omega
theorem self_blk6 (c : Dev nD) (t : Fin cfg6.N) (p : Fin 5000) (k : Fin 128) (P : Fin 50000) (hP : P.val = t.val * 5000 + p.val) :
    (iblk6 V c 1 t : Vec Ideal S5000x128 .f32) (ix2 p k) = (V c main_v89 : S50000x128.Idx → EReal) (ix2 P k) := by
  obtain ⟨-, -, e10, e11, -⟩ := idx_facts6 t
  unfold iblk6
  rw [View.read_apply]
  show (V c main_v89 : S50000x128.Idx → EReal) _ = _
  refine congrArg _ (funext fun a => Fin.ext ?_)
  match a with
  | ⟨0, _⟩ => show win6_1.index t (0 : Fin 2) * 5000 + 1 * p.val = P.val; rw [e10, hP]; omega
  | ⟨1, _⟩ => show win6_1.index t (1 : Fin 2) * 128 + 1 * k.val = k.val; rw [e11]; omega
/-- The weights' and the bias' blocks are the whole arrays at every point. -/
theorem wl_blk6 (c : Dev nD) (t : Fin cfg6.N) (q k : Fin 128) :
    (iblk6 V c 2 t : Vec Ideal S128x128 .f32) (ix2 q k) = (V c main_v123 : S128x128.Idx → EReal) (ix2 q k) := by
  obtain ⟨-, -, -, -, e20, e21, -⟩ := idx_facts6 t
  unfold iblk6
  rw [View.read_apply]
  show (V c main_v123 : S128x128.Idx → EReal) _ = _
  refine congrArg _ (funext fun a => Fin.ext ?_)
  match a with
  | ⟨0, _⟩ => show win6_2.index t (0 : Fin 2) * 128 + 1 * q.val = q.val; rw [e20]; omega
  | ⟨1, _⟩ => show win6_2.index t (1 : Fin 2) * 128 + 1 * k.val = k.val; rw [e21]; omega
theorem bl_blk6 (c : Dev nD) (t : Fin cfg6.N) (q : Fin 128) :
    (iblk6 V c 3 t : Vec Ideal S1x128 .f32) (ix2 (0 : Fin 1) q) = (V c main_v128 : S1x128.Idx → EReal) (ix2 (0 : Fin 1) q) := by
  obtain ⟨-, -, -, -, -, -, e30, e31, -⟩ := idx_facts6 t
  unfold iblk6
  rw [View.read_apply]
  show (V c main_v128 : S1x128.Idx → EReal) _ = _
  refine congrArg _ (funext fun a => Fin.ext ?_)
  match a with
  | ⟨0, _⟩ => show win6_3.index t (0 : Fin 2) * 1 + 1 * 0 = 0; rw [e30]
  | ⟨1, _⟩ => show win6_3.index t (1 : Fin 2) * 128 + 1 * q.val = q.val; rw [e31]; omega
theorem wr_blk6 (c : Dev nD) (t : Fin cfg6.N) (q k : Fin 128) :
    (iblk6 V c 4 t : Vec Ideal S128x128 .f32) (ix2 q k) = (V c main_v127 : S128x128.Idx → EReal) (ix2 q k) := by
  obtain ⟨-, -, -, -, -, -, -, -, e40, e41, -⟩ := idx_facts6 t
  unfold iblk6
  rw [View.read_apply]
  show (V c main_v127 : S128x128.Idx → EReal) _ = _
  refine congrArg _ (funext fun a => Fin.ext ?_)
  match a with
  | ⟨0, _⟩ => show win6_4.index t (0 : Fin 2) * 128 + 1 * q.val = q.val; rw [e40]; omega
  | ⟨1, _⟩ => show win6_4.index t (1 : Fin 2) * 128 + 1 * k.val = k.val; rw [e41]; omega

/-- The output array after the launch: the SAGE combination of the arrays as the launch finds them. -/
abbrev G6 (c : Dev nD) : S50000x128.Idx → EReal :=
  Cert.Sage.pre (V c main_v109) (V c main_v89) (V c main_v123) (Cert.Sage.rowOf (V c main_v128)) (V c main_v127)

/-- What point t writes back is block t of that function. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz6]
  simp only [View.ld_unit_zero (S := S5000x128) hz6, View.ld_unit_zero (S := S128x128) hz6, View.ld_unit_zero (S := S1x128) hz6]
  obtain ⟨-, -, -, -, -, -, -, -, -, -, e50, e51, hG⟩ := idx_facts6 t
  funext j
  obtain ⟨p, q, rfl⟩ : ∃ (p : Fin 5000) (q : Fin 128), j = ix2 p q := ⟨j 0, j 1, eq_ix2 j⟩
  have hp := p.isLt
  have he : ((cfg6.win 5).blk t).view.emb (ix2 p q) = ix2 (⟨t.val * 5000 + p.val, by omega⟩ : Fin 50000) q :=
    funext fun a => Fin.ext (by
      match a with
      | ⟨0, _⟩ => show win6_5.index t (0 : Fin 2) * 5000 + 1 * p.val = t.val * 5000 + p.val; rw [e50]; omega
      | ⟨1, _⟩ => show win6_5.index t (1 : Fin 2) * 128 + 1 * q.val = q.val; rw [e51]; omega)
  show k6_pay1 (iblk6 V c 0 t) (iblk6 V c 1 t) (iblk6 V c 2 t) (iblk6 V c 4 t) (iblk6 V c 3 t) (ix2 p q)
    = Cert.Sage.pre (V c main_v109) (V c main_v89) (V c main_v123) (Cert.Sage.rowOf (V c main_v128)) (V c main_v127) (((cfg6.win 5).blk t).view.emb (ix2 p q))
  rw [he, pre_pay_apply (iblk6 V c 0 t) (iblk6 V c 1 t) (iblk6 V c 2 t) (iblk6 V c 4 t) (iblk6 V c 3 t) p q, Cert.Sage.pre_ix2, Cert.Sage.rowOf_ix1]
  simp only [agg_blk6 V c t p _ ⟨t.val * 5000 + p.val, by omega⟩ rfl, self_blk6 V c t p _ ⟨t.val * 5000 + p.val, by omega⟩ rfl,
    wl_blk6 V c t q, wr_blk6 V c t q, bl_blk6 V c t q]

/-- Every row is in some point's block: row r in point r / 5000's. -/
theorem cover6 (i : S50000x128.Idx) : ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, -, -, -, -, e50, e51, -⟩ := idx_facts6 t
  refine ⟨t, flush6_5 t, ?_⟩
  show i ∈ ((View.whole main_v129).slice (win6_5.rect t)).set
  rw [View.set_slice_whole, Rect.mem_set_unit]
  intro a
  match a with
  | ⟨0, _⟩ => show win6_5.index t (0 : Fin 2) * 5000 ≤ (i 0).val ∧ (i 0).val < win6_5.index t (0 : Fin 2) * 5000 + 5000; rw [e50]; show (i 0).val / 5000 * 5000 ≤ (i 0).val ∧ (i 0).val < (i 0).val / 5000 * 5000 + 5000; omega
  | ⟨1, _⟩ => show win6_5.index t (1 : Fin 2) * 128 ≤ (i 1).val ∧ (i 1).val < win6_5.index t (1 : Fin 2) * 128 + 128; rw [e51]; omega

/-- The output array after the launch. -/
theorem final6 (c : Dev nD) : (dat6 V c).arrAt 5 cfg6.N = G6 V c :=
  (dat6 V c).arrAt_eq_of_cover 5 (G6 V c) (fun t _ => flushed6_eq V c t) (cover6)

end Cert.KernelIdeal.Hand

end
-- ==== Proof.Region7.lean ====
/-
  Kernel launch 7 as one function of whole arrays.

  The launch runs its body at 20 grid points. Point t reads rows 5000·t … 5000·t + 4999 of the aggregated and of the own
  node array, the two whole weight matrices and the bias row, and writes back rows 5000·t … 5000·t + 4999 of the output.
  What it writes is the SAGE combination of those rows: entry (p, q) of the block depends on row 5000·t + p of the two
  node arrays and row q of the weights only. The 20 row blocks tile the 100000 rows, so the output array ends as the SAGE
  combination of the whole arrays as the launch finds them.
-/
import proofs.«106916_j56624848830739_1_alg».proof.Proof.Gen.KernelIdeal.Frame
import proofs.«106916_j56624848830739_1_alg».proof.Proof.Spec
import proofs.«106916_j56624848830739_1_alg».proof.Proof.Body
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: the two node arrays' windows and the output's move one row block per point,
    the weights' and the bias' windows stay. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 ∧ t.val < 20 :=
  (by decide +kernel : ∀ t : Fin grid7.N, _)

/-- A node array's block at point t, entry (p, k), is the array at row 5000·t + p. -/
theorem agg_blk7 (c : Dev nD) (t : Fin cfg7.N) (p : Fin 5000) (k : Fin 128) (P : Fin 100000) (hP : P.val = t.val * 5000 + p.val) :
    (iblk7 V c 0 t : Vec Ideal S5000x128 .f32) (ix2 p k) = (V c main_v121 : S100000x128.Idx → EReal) (ix2 P k) := by
  obtain ⟨e00, e01, -⟩ := idx_facts7 t
  unfold iblk7
  rw [View.read_apply]
  show (V c main_v121 : S100000x128.Idx → EReal) _ = _
  refine congrArg _ (funext fun a => Fin.ext ?_)
  match a with
  | ⟨0, _⟩ => show win7_0.index t (0 : Fin 2) * 5000 + 1 * p.val = P.val; rw [e00, hP]; omega
  | ⟨1, _⟩ => show win7_0.index t (1 : Fin 2) * 128 + 1 * k.val = k.val; rw [e01]; omega
theorem self_blk7 (c : Dev nD) (t : Fin cfg7.N) (p : Fin 5000) (k : Fin 128) (P : Fin 100000) (hP : P.val = t.val * 5000 + p.val) :
    (iblk7 V c 1 t : Vec Ideal S5000x128 .f32) (ix2 p k) = (V c main_v97 : S100000x128.Idx → EReal) (ix2 P k) := by
  obtain ⟨-, -, e10, e11, -⟩ := idx_facts7 t
  unfold iblk7
  rw [View.read_apply]
  show (V c main_v97 : S100000x128.Idx → EReal) _ = _
  refine congrArg _ (funext fun a => Fin.ext ?_)
  match a with
  | ⟨0, _⟩ => show win7_1.index t (0 : Fin 2) * 5000 + 1 * p.val = P.val; rw [e10, hP]; omega
  | ⟨1, _⟩ => show win7_1.index t (1 : Fin 2) * 128 + 1 * k.val = k.val; rw [e11]; omega
/-- The weights' and the bias' blocks are the whole arrays at every point. -/
theorem wl_blk7 (c : Dev nD) (t : Fin cfg7.N) (q k : Fin 128) :
    (iblk7 V c 2 t : Vec Ideal S128x128 .f32) (ix2 q k) = (V c main_v131 : S128x128.Idx → EReal) (ix2 q k) := by
  obtain ⟨-, -, -, -, e20, e21, -⟩ := idx_facts7 t
  unfold iblk7
  rw [View.read_apply]
  show (V c main_v131 : S128x128.Idx → EReal) _ = _
  refine congrArg _ (funext fun a => Fin.ext ?_)
  match a with
  | ⟨0, _⟩ => show win7_2.index t (0 : Fin 2) * 128 + 1 * q.val = q.val; rw [e20]; omega
  | ⟨1, _⟩ => show win7_2.index t (1 : Fin 2) * 128 + 1 * k.val = k.val; rw [e21]; omega
theorem bl_blk7 (c : Dev nD) (t : Fin cfg7.N) (q : Fin 128) :
    (iblk7 V c 3 t : Vec Ideal S1x128 .f32) (ix2 (0 : Fin 1) q) = (V c main_v136 : S1x128.Idx → EReal) (ix2 (0 : Fin 1) q) := by
  obtain ⟨-, -, -, -, -, -, e30, e31, -⟩ := idx_facts7 t
  unfold iblk7
  rw [View.read_apply]
  show (V c main_v136 : S1x128.Idx → EReal) _ = _
  refine congrArg _ (funext fun a => Fin.ext ?_)
  match a with
  | ⟨0, _⟩ => show win7_3.index t (0 : Fin 2) * 1 + 1 * 0 = 0; rw [e30]
  | ⟨1, _⟩ => show win7_3.index t (1 : Fin 2) * 128 + 1 * q.val = q.val; rw [e31]; omega
theorem wr_blk7 (c : Dev nD) (t : Fin cfg7.N) (q k : Fin 128) :
    (iblk7 V c 4 t : Vec Ideal S128x128 .f32) (ix2 q k) = (V c main_v135 : S128x128.Idx → EReal) (ix2 q k) := by
  obtain ⟨-, -, -, -, -, -, -, -, e40, e41, -⟩ := idx_facts7 t
  unfold iblk7
  rw [View.read_apply]
  show (V c main_v135 : S128x128.Idx → EReal) _ = _
  refine congrArg _ (funext fun a => Fin.ext ?_)
  match a with
  | ⟨0, _⟩ => show win7_4.index t (0 : Fin 2) * 128 + 1 * q.val = q.val; rw [e40]; omega
  | ⟨1, _⟩ => show win7_4.index t (1 : Fin 2) * 128 + 1 * k.val = k.val; rw [e41]; omega

/-- The output array after the launch: the SAGE combination of the arrays as the launch finds them. -/
abbrev G7 (c : Dev nD) : S100000x128.Idx → EReal :=
  Cert.Sage.pre (V c main_v121) (V c main_v97) (V c main_v131) (Cert.Sage.rowOf (V c main_v136)) (V c main_v135)

/-- What point t writes back is block t of that function. -/
theorem flushed7_eq (c : Dev nD) (t : Fin cfg7.N) :
    (dat7 V c).flushed 5 t = ((cfg7.win 5).blk t).view.read (Elt Ideal) (G7 V c) := by
  show (cfg7.win 5).cut (grid7.coords t) ((dat7 V c).after 5 t) = _
  rw [after7_5]
  unfold out7_5
  rw [View.canon_unit_zero hz7]
  simp only [View.ld_unit_zero (S := S5000x128) hz7, View.ld_unit_zero (S := S128x128) hz7, View.ld_unit_zero (S := S1x128) hz7]
  obtain ⟨-, -, -, -, -, -, -, -, -, -, e50, e51, hG⟩ := idx_facts7 t
  funext j
  obtain ⟨p, q, rfl⟩ : ∃ (p : Fin 5000) (q : Fin 128), j = ix2 p q := ⟨j 0, j 1, eq_ix2 j⟩
  have hp := p.isLt
  have he : ((cfg7.win 5).blk t).view.emb (ix2 p q) = ix2 (⟨t.val * 5000 + p.val, by omega⟩ : Fin 100000) q :=
    funext fun a => Fin.ext (by
      match a with
      | ⟨0, _⟩ => show win7_5.index t (0 : Fin 2) * 5000 + 1 * p.val = t.val * 5000 + p.val; rw [e50]; omega
      | ⟨1, _⟩ => show win7_5.index t (1 : Fin 2) * 128 + 1 * q.val = q.val; rw [e51]; omega)
  show k7_pay1 (iblk7 V c 0 t) (iblk7 V c 1 t) (iblk7 V c 2 t) (iblk7 V c 4 t) (iblk7 V c 3 t) (ix2 p q)
    = Cert.Sage.pre (V c main_v121) (V c main_v97) (V c main_v131) (Cert.Sage.rowOf (V c main_v136)) (V c main_v135) (((cfg7.win 5).blk t).view.emb (ix2 p q))
  rw [he, k7_pay_eq, pre_pay_apply (iblk7 V c 0 t) (iblk7 V c 1 t) (iblk7 V c 2 t) (iblk7 V c 4 t) (iblk7 V c 3 t) p q, Cert.Sage.pre_ix2, Cert.Sage.rowOf_ix1]
  simp only [agg_blk7 V c t p _ ⟨t.val * 5000 + p.val, by omega⟩ rfl, self_blk7 V c t p _ ⟨t.val * 5000 + p.val, by omega⟩ rfl,
    wl_blk7 V c t q, wr_blk7 V c t q, bl_blk7 V c t q]

/-- Every row is in some point's block: row r in point r / 5000's. -/
theorem cover7 (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  obtain ⟨-, -, -, -, -, -, -, -, -, -, e50, e51, -⟩ := idx_facts7 t
  refine ⟨t, flush7_5 t, ?_⟩
  show i ∈ ((View.whole main_v137).slice (win7_5.rect t)).set
  rw [View.set_slice_whole, Rect.mem_set_unit]
  intro a
  match a with
  | ⟨0, _⟩ => show win7_5.index t (0 : Fin 2) * 5000 ≤ (i 0).val ∧ (i 0).val < win7_5.index t (0 : Fin 2) * 5000 + 5000; rw [e50]; show (i 0).val / 5000 * 5000 ≤ (i 0).val ∧ (i 0).val < (i 0).val / 5000 * 5000 + 5000; omega
  | ⟨1, _⟩ => show win7_5.index t (1 : Fin 2) * 128 ≤ (i 1).val ∧ (i 1).val < win7_5.index t (1 : Fin 2) * 128 + 128; rw [e51]; omega

/-- The output array after the launch. -/
theorem final7 (c : Dev nD) : (dat7 V c).arrAt 5 cfg7.N = G7 V c :=
  (dat7 V c).arrAt_eq_of_cover 5 (G7 V c) (fun t _ => flushed7_eq V c t) (cover7)

end Cert.KernelIdeal.Hand

end
-- ==== Proof.ChainD.lean ====
/-
  The third SAGE layer, without rectifier, and the link scores.

  After the last two launches the host gathers the user rows and the product rows of the labelled pairs, multiplies them
  entry by entry and sums each row: the result buffer holds the reference's result stage.
-/
import proofs.«106916_j56624848830739_1_alg».proof.Proof.ChainC
import proofs.«106916_j56624848830739_1_alg».proof.Proof.Region6
import proofs.«106916_j56624848830739_1_alg».proof.Proof.Region7
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem F13_v109 : W13 m ρ c (no_index (Proc.devRef .tc main_v109)) = (Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show StableHlo.after hostOps6 (W12 m ρ c) (Proc.devRef .tc main_v109) = _
  after_results_simp
  try simp (disch := decide) only [launchKeep0, launchKeep1, launchKeep2, launchKeep3, launchKeep4, launchKeep5, hostKeep0, hostKeep1, hostKeep2, hostKeep3, hostKeep4, hostKeep5, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97]
  try rfl
theorem F13_v121 : W13 m ρ c (no_index (Proc.devRef .tc main_v121)) = (Cert.ReferenceIdeal.Read.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show StableHlo.after hostOps6 (W12 m ρ c) (Proc.devRef .tc main_v121) = _
  after_results_simp
  try simp (disch := decide) only [launchKeep0, launchKeep1, launchKeep2, launchKeep3, launchKeep4, launchKeep5, hostKeep0, hostKeep1, hostKeep2, hostKeep3, hostKeep4, hostKeep5, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97]
  try rfl
theorem F13_v123 : W13 m ρ c (no_index (Proc.devRef .tc main_v123)) = (Cert.ReferenceIdeal.Read.val_main_v157 (F := Ideal) (m ((c : Thread nD τ).loc main_arg10))) := by
  show StableHlo.after hostOps6 (W12 m ρ c) (Proc.devRef .tc main_v123) = _
  after_results_simp
  try simp (disch := decide) only [launchKeep0, launchKeep1, launchKeep2, launchKeep3, launchKeep4, launchKeep5, hostKeep0, hostKeep1, hostKeep2, hostKeep3, hostKeep4, hostKeep5, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97]
  try rfl
theorem F13_v127 : W13 m ρ c (no_index (Proc.devRef .tc main_v127)) = (Cert.ReferenceIdeal.Read.val_main_v166 (F := Ideal) (m ((c : Thread nD τ).loc main_arg12))) := by
  show StableHlo.after hostOps6 (W12 m ρ c) (Proc.devRef .tc main_v127) = _
  after_results_simp
  try simp (disch := decide) only [launchKeep0, launchKeep1, launchKeep2, launchKeep3, launchKeep4, launchKeep5, hostKeep0, hostKeep1, hostKeep2, hostKeep3, hostKeep4, hostKeep5, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97]
  try rfl
theorem F13_v128 : W13 m ρ c (no_index (Proc.devRef .tc main_v128)) = shapeCast S1x128 (Cert.ReferenceIdeal.Read.val_main_v161 (F := Ideal) (m ((c : Thread nD τ).loc main_arg11))) Facts₀.shapeCasts_S128_S1x128 := by
  show StableHlo.after hostOps6 (W12 m ρ c) (Proc.devRef .tc main_v128) = _
  after_results_simp
  try simp (disch := decide) only [launchKeep0, launchKeep1, launchKeep2, launchKeep3, launchKeep4, launchKeep5, hostKeep0, hostKeep1, hostKeep2, hostKeep3, hostKeep4, hostKeep5, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97]
  try rfl
theorem F14_v129 : W14 m ρ c (no_index (Proc.devRef .tc main_v129)) = (Cert.ReferenceIdeal.Read.val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W14 m ρ c (Proc.devRef .tc main_v129) = (dat6 (V13 m ρ) c).arrAt 5 cfg6.N from W14_arr m ρ c 5, final6 (V13 m ρ) c]
  simp (disch := decide) only [G6, V13, launchKeep0, launchKeep1, launchKeep2, launchKeep3, launchKeep4, launchKeep5, hostKeep0, hostKeep1, hostKeep2, hostKeep3, hostKeep4, hostKeep5, hostKeep6, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97, F13_v109, F13_v121, F13_v123, F13_v127, F13_v128]
  rw [Cert.Sage.rowOf_shapeCast]
  exact (Cert.ReferenceIdeal.Hand.ref_pre50000 _ _ _ _ _ _ _ _ _).symm
theorem F15_v131 : W15 m ρ c (no_index (Proc.devRef .tc main_v131)) = (Cert.ReferenceIdeal.Read.val_main_v171 (F := Ideal) (m ((c : Thread nD τ).loc main_arg13))) := by
  show StableHlo.after hostOps7 (W14 m ρ c) (Proc.devRef .tc main_v131) = _
  after_results_simp
  try simp (disch := decide) only [launchKeep0, launchKeep1, launchKeep2, launchKeep3, launchKeep4, launchKeep5, launchKeep6, hostKeep0, hostKeep1, hostKeep2, hostKeep3, hostKeep4, hostKeep5, hostKeep6, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97, F13_v109, F13_v121, F13_v123, F13_v127, F13_v128, F14_v129]
  try rfl
theorem F15_v135 : W15 m ρ c (no_index (Proc.devRef .tc main_v135)) = (Cert.ReferenceIdeal.Read.val_main_v180 (F := Ideal) (m ((c : Thread nD τ).loc main_arg15))) := by
  show StableHlo.after hostOps7 (W14 m ρ c) (Proc.devRef .tc main_v135) = _
  after_results_simp
  try simp (disch := decide) only [launchKeep0, launchKeep1, launchKeep2, launchKeep3, launchKeep4, launchKeep5, launchKeep6, hostKeep0, hostKeep1, hostKeep2, hostKeep3, hostKeep4, hostKeep5, hostKeep6, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97, F13_v109, F13_v121, F13_v123, F13_v127, F13_v128, F14_v129]
  try rfl
theorem F15_v136 : W15 m ρ c (no_index (Proc.devRef .tc main_v136)) = shapeCast S1x128 (Cert.ReferenceIdeal.Read.val_main_v175 (F := Ideal) (m ((c : Thread nD τ).loc main_arg14))) Facts₀.shapeCasts_S128_S1x128 := by
  show StableHlo.after hostOps7 (W14 m ρ c) (Proc.devRef .tc main_v136) = _
  after_results_simp
  try simp (disch := decide) only [launchKeep0, launchKeep1, launchKeep2, launchKeep3, launchKeep4, launchKeep5, launchKeep6, hostKeep0, hostKeep1, hostKeep2, hostKeep3, hostKeep4, hostKeep5, hostKeep6, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97, F13_v109, F13_v121, F13_v123, F13_v127, F13_v128, F14_v129]
  try rfl
theorem F16_v137 : W16 m ρ c (no_index (Proc.devRef .tc main_v137)) = (Cert.ReferenceIdeal.Read.val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W16 m ρ c (Proc.devRef .tc main_v137) = (dat7 (V15 m ρ) c).arrAt 5 cfg7.N from W16_arr m ρ c 5, final7 (V15 m ρ) c]
  simp (disch := decide) only [G7, V15, launchKeep0, launchKeep1, launchKeep2, launchKeep3, launchKeep4, launchKeep5, launchKeep6, hostKeep0, hostKeep1, hostKeep2, hostKeep3, hostKeep4, hostKeep5, hostKeep6, hostKeep7, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97, F13_v109, F13_v121, F13_v123, F13_v127, F13_v128, F14_v129, F15_v131, F15_v135, F15_v136]
  rw [Cert.Sage.rowOf_shapeCast]
  exact (Cert.ReferenceIdeal.Hand.ref_pre100000 _ _ _ _ _ _ _ _ _).symm
theorem F17_v153 : W17 m ρ c (no_index (Proc.devRef .tc main_v153)) = (Cert.ReferenceIdeal.Read.val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show StableHlo.after hostOps8 (W16 m ρ c) (Proc.devRef .tc main_v153) = _
  after_results_simp
  try simp (disch := decide) only [launchKeep0, launchKeep1, launchKeep2, launchKeep3, launchKeep4, launchKeep5, launchKeep6, launchKeep7, hostKeep0, hostKeep1, hostKeep2, hostKeep3, hostKeep4, hostKeep5, hostKeep6, hostKeep7, F1_v0, F2_v1, F3_v2, F4_v3, F5_v10, F5_v17, F5_v29, F5_v41, F5_v43, F5_v47, F5_v48, F6_v49, F7_v51, F7_v55, F7_v56, F8_v57, F9_v69, F9_v81, F9_v83, F9_v87, F9_v88, F10_v89, F11_v91, F11_v95, F11_v96, F12_v97, F13_v109, F13_v121, F13_v123, F13_v127, F13_v128, F14_v129, F15_v131, F15_v135, F15_v136, F16_v137]
  try rfl

end Cert.KernelIdeal.Hand

end
-- ==== Proof.lean ====
/-
  A three-layer, two-relation GraphSAGE link predictor: the kernel program and its reference compute the same scores.

  The kernel program computes the two input projections and, per layer, the two SAGE combinations
  `(agg · Wlᵀ + bl) + self · Wrᵀ` (rectified in the first two layers) in eight kernel launches tiled over 5000-row blocks,
  and everything irregular — degrees, the gather along the edges, the per-node sums, the division by the degree, the final
  gather, product and row sum — in host operations between the launches. The reference computes the dense layers by
  `dot_general` with the transposed weights and applies the same host operations. Over the extended reals the roundings
  to bf16 on the way into the matrix unit are the identity and a matrix product is a plain finite sum, so each launch's
  output array is, entry by entry, the reference's layer with the same association of the additions; no law of
  arithmetic is needed, and the precondition (finite inputs) is not used. The host operations are the same operations
  applied to equal values. So at every boundary of the kernel program each live buffer holds the reference's
  corresponding stage, and the result buffers agree.

  The three frames: the two kernel programs' are the launch-by-launch frames; the reference's is its run with the result
  forgotten. The idealization rewrote no operation, so there is nothing to preserve.
-/
import proofs.«106916_j56624848830739_1_alg».proof.Defs
import proofs.«106916_j56624848830739_1_alg».proof.Proof.Gen.Kernel
import proofs.«106916_j56624848830739_1_alg».proof.Proof.Gen.Kernel.Skeleton
import proofs.«106916_j56624848830739_1_alg».proof.Proof.Gen.Kernel.Launch
import proofs.«106916_j56624848830739_1_alg».proof.Proof.Gen.Kernel.Points
import proofs.«106916_j56624848830739_1_alg».proof.Proof.Gen.Kernel.Frame
import proofs.«106916_j56624848830739_1_alg».proof.Proof.Gen.KernelIdeal
import proofs.«106916_j56624848830739_1_alg».proof.Proof.Gen.KernelIdeal.Skeleton
import proofs.«106916_j56624848830739_1_alg».proof.Proof.Gen.KernelIdeal.Launch
import proofs.«106916_j56624848830739_1_alg».proof.Proof.Gen.KernelIdeal.Points
import proofs.«106916_j56624848830739_1_alg».proof.Proof.Gen.KernelIdeal.Frame
import proofs.«106916_j56624848830739_1_alg».proof.Proof.Gen.ReferenceIdeal
import proofs.«106916_j56624848830739_1_alg».proof.Proof.Gen.ReferenceIdeal.Run
import proofs.«106916_j56624848830739_1_alg».proof.Proof.Gen.ReferenceIdeal.Read
import proofs.«106916_j56624848830739_1_alg».proof.Proof.Gen.Pre_finite_inputs
import proofs.«106916_j56624848830739_1_alg».proof.Proof.KernelRun
import proofs.«106916_j56624848830739_1_alg».proof.Proof.ChainD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's result stage of the (agreeing) arguments. -/
theorem algebraic : Cert.algebraic_KernelIdeal_ReferenceIdeal := by
  intro m ρ m' ρ' _ hagree
  refine ⟨fun c => Cert.KernelIdeal.Gen.W17 m ρ c (Proc.devRef .tc Cert.KernelIdeal.main_v153),
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v199_eq, h0, h1, h2, h3, h4, h5, h6, h7, h8, h9, h10, h11, h12, h13, h14, h15]
  exact (Cert.KernelIdeal.Hand.F17_v153 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
